-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S2816x4096 : Shape := ⟨2, ![2816, 4096]⟩
abbrev S11008 : Shape := ⟨1, ![11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S2816x4096 : S_.BroadcastsInDim S2816x4096 (![] : Fin 0 → Fin S2816x4096.rank)
  reducesTo_S2816x4096_S_d0_1 : S2816x4096.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_arg3 : IVec S11008 32) (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  let main_c_6 : IVec S_ 32 := constantI S_ 32 4294956288#32
  let main_v19 : IVec S11008 32 := broadcastInDim S11008 ![] bcast_S_S11008 main_c_6
  let main_v20 : IVec S11008 1 := cmpi .sge main_arg3 main_v19
  let main_c_7 : IVec S_ 1 := constantI S_ 1 1#1
  let main_v21 : IVec S_ 1 := (fun x v => Host.reduce IntOp.andi x v reducesTo_S11008_S_d0 h_S_) main_v20 main_c_7
  let main_v22 : IVec S_ 1 := andi main_v18 main_v21
  let main_c_8 : IVec S_ 32 := constantI S_ 32 11008#32
  let main_v23 : IVec S11008 32 := broadcastInDim S11008 ![] bcast_S_S11008 main_c_8
  let main_v24 : IVec S11008 1 := cmpi .slt main_arg3 main_v23
  let main_c_9 : IVec S_ 1 := constantI S_ 1 1#1
  let main_v25 : IVec S_ 1 := (fun x v => Host.reduce IntOp.andi x v reducesTo_S11008_S_d0 h_S_) main_v24 main_c_9
  let main_v26 : IVec S_ 1 := andi main_v22 main_v25
  main_v26

def fn {F : FTy → Type} [FloatOps F] (main_arg0 : FVec F S8192x4096 .f32) (main_arg1 : FVec F S8192x4096 .f32) (main_arg2 : FVec F S2816x4096 .f32) (main_arg3 : IVec S11008 32) (main_arg4 : FVec F S11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S2816x4096 .f32 := Host.absf main_arg2
  let main_cst_2 : FVec F S_ .f32 := constant S_ .f32 0x7F800000#32
  let main_v10 : FVec F S2816x4096 .f32 := broadcastInDim S2816x4096 ![] bcast_S_S2816x4096 main_cst_2
  let main_v11 : IVec S2816x4096 1 := cmpf .olt main_v9 main_v10
  let main_c_3 : IVec S_ 1 := constantI S_ 1 1#1
  let main_v12 : IVec S_ 1 := (fun x v => Host.reduce IntOp.andi x v reducesTo_S2816x4096_S_d0_1 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_arg3 main_v13 main_v16
-- ==== Kernel.lean ====
abbrev S8192x4096 : Shape := ⟨2, ![8192, 4096]⟩
abbrev S2816x4096 : Shape := ⟨2, ![2816, 4096]⟩
abbrev S11008 : Shape := ⟨1, ![11008]⟩
abbrev S11008x4096 : Shape := ⟨2, ![11008, 4096]⟩
abbrev S_ : Shape := ⟨0, ![]⟩
abbrev S11008x1 : Shape := ⟨2, ![11008, 1]⟩
abbrev S1 : Shape := ⟨1, ![1]⟩
abbrev S1x1 : Shape := ⟨2, ![1, 1]⟩
abbrev S11264x4096 : Shape := ⟨2, ![11264, 4096]⟩
abbrev S11264 : Shape := ⟨1, ![11264]⟩
abbrev S1x11264 : Shape := ⟨2, ![1, 11264]⟩
abbrev S8192x11264 : Shape := ⟨2, ![8192, 11264]⟩
abbrev S1024x1024 : Shape := ⟨2, ![1024, 1024]⟩
abbrev S1x1024 : Shape := ⟨2, ![1, 1024]⟩
abbrev S8192x11008 : Shape := ⟨2, ![8192, 11008]⟩

abbrev nBuf : Space → Nat
  | .hbm => 40
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2816x4096, .f32⟩
  | .hbm, ⟨3, _⟩ => ⟨S11008, .i32⟩
  | .hbm, ⟨4, _⟩ => ⟨S11008, .f32⟩
  | .hbm, ⟨5, _⟩ => ⟨S11008x4096, .f32⟩
  | .hbm, ⟨6, _⟩ => ⟨S_, .i32⟩
  | .hbm, ⟨7, _⟩ => ⟨S11008, .i32⟩
  | .hbm, ⟨8, _⟩ => ⟨S11008, .i1⟩
  | .hbm, ⟨9, _⟩ => ⟨S_, .i32⟩
  | .hbm, ⟨10, _⟩ => ⟨S11008, .i32⟩
  | .hbm, ⟨11, _⟩ => ⟨S11008, .i32⟩
  | .hbm, ⟨12, _⟩ => ⟨S11008, .i32⟩
  | .hbm, ⟨13, _⟩ => ⟨S11008x1, .i32⟩
  | .hbm, ⟨14, _⟩ => ⟨S1, .i32⟩
  | .hbm, ⟨15, _⟩ => ⟨S_, .i32⟩
  | .hbm, ⟨16, _⟩ => ⟨S11008x1, .i32⟩
  | .hbm, ⟨17, _⟩ => ⟨S11008x1, .i1⟩
  | .hbm, ⟨18, _⟩ => ⟨S1x1, .i32⟩
  | .hbm, ⟨19, _⟩ => ⟨S11008x1, .i32⟩
  | .hbm, ⟨20, _⟩ => ⟨S11008x1, .i1⟩
  | .hbm, ⟨21, _⟩ => ⟨S11008x1, .i1⟩
  | .hbm, ⟨22, _⟩ => ⟨S_, .i1⟩
  | .hbm, ⟨23, _⟩ => ⟨S11008, .i1⟩
  | .hbm, ⟨24, _⟩ => ⟨S11008x4096, .f32⟩
  | .hbm, ⟨25, _⟩ => ⟨S11008x4096, .i1⟩
  | .hbm, ⟨26, _⟩ => ⟨S_, .f32⟩
  | .hbm, ⟨27, _⟩ => ⟨S11008x4096, .f32⟩
  | .hbm, ⟨28, _⟩ => ⟨S11008x4096, .f32⟩
  | .hbm, ⟨29, _⟩ => ⟨S_, .i32⟩
  | .hbm, ⟨30, _⟩ => ⟨S_, .f32⟩
  | .hbm, ⟨31, _⟩ => ⟨S11264x4096, .f32⟩
  | .hbm, ⟨32, _⟩ => ⟨S_, .i32⟩
  | .hbm, ⟨33, _⟩ => ⟨S_, .f32⟩
  | .hbm, ⟨34, _⟩ => ⟨S11264, .f32⟩
  | .hbm, ⟨35, _⟩ => ⟨S8192x4096, .bf16⟩
  | .hbm, ⟨36, _⟩ => ⟨S11264x4096, .bf16⟩
  | .hbm, ⟨37, _⟩ => ⟨S1x11264, .f32⟩
  | .hbm, ⟨38, _⟩ => ⟨S8192x11264, .f32⟩
  | .hbm, ⟨39, _⟩ => ⟨S8192x11008, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_c : Ref sig .tc := ⟨.hbm, 29, rfl⟩
abbrev main_call1_v0 : Ref sig .tc := ⟨.hbm, 30, rfl⟩
abbrev main_v2 : Ref sig .tc := ⟨.hbm, 31, rfl⟩
abbrev main_c_0 : Ref sig .tc := ⟨.hbm, 32, rfl⟩
abbrev main_call2_v0 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 11, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  concatenates_S8192x4096_S2816x4096_S11008x4096_d0 : Shape.Concatenates [S8192x4096, S2816x4096] S11008x4096 0
  bcast_S_S11008 : S_.BroadcastsInDim S11008 (![] : Fin 0 → Fin S11008.rank)
  bcast_S11008_S11008x1_0 : S11008.BroadcastsInDim S11008x1 (![0] : Fin 1 → Fin S11008x1.rank)
  bcast_S_S11008x1 : S_.BroadcastsInDim S11008x1 (![] : Fin 0 → Fin S11008x1.rank)
  bcast_S1_S1x1_1 : S1.BroadcastsInDim S1x1 (![1] : Fin 1 → Fin S1x1.rank)
  bcast_S1x1_S11008x1_0_1 : S1x1.BroadcastsInDim S11008x1 (![0, 1] : Fin 2 → Fin S11008x1.rank)
  reducesTo_S11008x1_S11008_d1 : S11008x1.ReducesTo [1] S11008
  h_S_ : 0 < S_.numel
  bcast_S11008_S11008x4096_0 : S11008.BroadcastsInDim S11008x4096 (![0] : Fin 1 → Fin S11008x4096.rank)
  bcast_S_S11008x4096 : S_.BroadcastsInDim S11008x4096 (![] : Fin 0 → Fin S11008x4096.rank)
  pads_S11008x4096_S11264x4096_02560_000 : S11008x4096.Pads (![0, 0] : Fin 2 → Nat) ![256, 0] ![0, 0] S11264x4096
  pads_S11008_S11264_02560 : S11008.Pads (![0] : Fin 1 → Nat) ![256] ![0] S11264
  bitsLt_bf16_f32 : FTy.bits .bf16 < FTy.bits .f32
  shapeCasts_S11264_S1x11264 : S11264.ShapeCasts S1x11264
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S8192x11264_S8192x11008_0_0 : S8192x11264.Slices ![0, 0] S8192x11008
  gather_S11008x4096_S11008x1_S11008x4096_1_0_n_n_0_1_14096_wf : GatherDims.WF S11008x4096 S11008x1 S11008x4096 [1] [0] [] [0] [] 1 ![1, 4096]
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S11264x4096.size a
  hwx0_1 : ∀ i : grid0.Coords, EltTy.bits .bf16 = 32 ∨ (Rect.block (s := S11264x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x11264.size a
  hwx0_2 : ∀ i : grid0.Coords, EltTy.bits .f32 = 32 ∨ (Rect.block (s := S1x11264) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x11264.size a
  hwx0_3 : ∀ i : grid0.Coords, EltTy.bits .f32 = 32 ∨ (Rect.block (s := S8192x11264) S1024x1024.size (cc0_transform_3 i) (hinb0_3 i)).WholeWords (EltTy.packing .f32)

variable [Facts₀]

def gather_S11008x4096_S11008x1_S11008x4096_1_0_n_n_0_1_14096 : GatherDims S11008x4096 S11008x1 S11008x4096 where
  offsetDims := [1]
  collapsedSliceDims := [0]
  operandBatchingDims := []
  startIndicesBatchingDims := []
  startIndexMap := [0]
  indexVectorDim := 1
  sliceSizes := ![1, 4096]
  wf := gather_S11008x4096_S11008x1_S11008x4096_1_0_n_n_0_1_14096_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S2816x4096 : Shape := ⟨2, ![2816, 4096]⟩
abbrev S11008 : Shape := ⟨1, ![11008]⟩
abbrev S8192x8192 : Shape := ⟨2, ![8192, 8192]⟩
abbrev S8192x2816 : Shape := ⟨2, ![8192, 2816]⟩
abbrev S8192x11008 : Shape := ⟨2, ![8192, 11008]⟩
abbrev S_ : Shape := ⟨0, ![]⟩
abbrev S11008x1 : Shape := ⟨2, ![11008, 1]⟩
abbrev S1 : Shape := ⟨1, ![1]⟩
abbrev S1x1 : Shape := ⟨2, ![1, 1]⟩
abbrev S1x11008 : Shape := ⟨2, ![1, 11008]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2816x4096, .f32⟩
  | .hbm, ⟨3, _⟩ => ⟨S11008, .i32⟩
  | .hbm, ⟨4, _⟩ => ⟨S11008, .f32⟩
  | .hbm, ⟨5, _⟩ => ⟨S8192x8192, .f32⟩
  | .hbm, ⟨6, _⟩ => ⟨S8192x2816, .f32⟩
  | .hbm, ⟨7, _⟩ => ⟨S8192x11008, .f32⟩
  | .hbm, ⟨8, _⟩ => ⟨S_, .i32⟩
  | .hbm, ⟨9, _⟩ => ⟨S11008, .i32⟩
  | .hbm, ⟨10, _⟩ => ⟨S11008, .i1⟩
  | .hbm, ⟨11, _⟩ => ⟨S_, .i32⟩
  | .hbm, ⟨12, _⟩ => ⟨S11008, .i32⟩
  | .hbm, ⟨13, _⟩ => ⟨S11008, .i32⟩
  | .hbm, ⟨14, _⟩ => ⟨S11008, .i32⟩
  | .hbm, ⟨15, _⟩ => ⟨S11008x1, .i32⟩
  | .hbm, ⟨16, _⟩ => ⟨S1, .i32⟩
  | .hbm, ⟨17, _⟩ => ⟨S_, .i32⟩
  | .hbm, ⟨18, _⟩ => ⟨S11008x1, .i32⟩
  | .hbm, ⟨19, _⟩ => ⟨S11008x1, .i1⟩
  | .hbm, ⟨20, _⟩ => ⟨S1x1, .i32⟩
  | .hbm, ⟨21, _⟩ => ⟨S11008x1, .i32⟩
  | .hbm, ⟨22, _⟩ => ⟨S11008x1, .i1⟩
  | .hbm, ⟨23, _⟩ => ⟨S11008x1, .i1⟩
  | .hbm, ⟨24, _⟩ => ⟨S_, .i1⟩
  | .hbm, ⟨25, _⟩ => ⟨S11008, .i1⟩
  | .hbm, ⟨26, _⟩ => ⟨S8192x11008, .f32⟩
  | .hbm, ⟨27, _⟩ => ⟨S8192x11008, .i1⟩
  | .hbm, ⟨28, _⟩ => ⟨S_, .f32⟩
  | .hbm, ⟨29, _⟩ => ⟨S8192x11008, .f32⟩
  | .hbm, ⟨30, _⟩ => ⟨S8192x11008, .f32⟩
  | .hbm, ⟨31, _⟩ => ⟨S1x11008, .f32⟩
  | .hbm, ⟨32, _⟩ => ⟨S8192x11008, .f32⟩
  | .hbm, ⟨33, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩

abbrev nD : Nat := 1
abbrev τ : Topo := Topo.v7x

variable {F : FTy → Type} [FloatOps F]

class Facts₀ : Prop where
  concatenates_S8192x8192_S8192x2816_S8192x11008_d1 : Shape.Concatenates [S8192x8192, S8192x2816] S8192x11008 1
  bcast_S_S11008 : S_.BroadcastsInDim S11008 (![] : Fin 0 → Fin S11008.rank)
  bcast_S11008_S11008x1_0 : S11008.BroadcastsInDim S11008x1 (![0] : Fin 1 → Fin S11008x1.rank)
  bcast_S_S11008x1 : S_.BroadcastsInDim S11008x1 (![] : Fin 0 → Fin S11008x1.rank)
  bcast_S1_S1x1_1 : S1.BroadcastsInDim S1x1 (![1] : Fin 1 → Fin S1x1.rank)
  bcast_S1x1_S11008x1_0_1 : S1x1.BroadcastsInDim S11008x1 (![0, 1] : Fin 2 → Fin S11008x1.rank)
  reducesTo_S11008x1_S11008_d1 : S11008x1.ReducesTo [1] S11008
  h_S_ : 0 < S_.numel
  bcast_S11008_S8192x11008_1 : S11008.BroadcastsInDim S8192x11008 (![1] : Fin 1 → Fin S8192x11008.rank)
  bcast_S_S8192x11008 : S_.BroadcastsInDim S8192x11008 (![] : Fin 0 → Fin S8192x11008.rank)
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  dot_S8192x4096_S8192x4096_S8192x8192_1_1_0_0_n_n_wf : DotDims.WF S8192x4096 S8192x4096 S8192x8192 [1] [1] [0] [0] [] []
  dot_S8192x4096_S2816x4096_S8192x2816_1_1_0_0_n_n_wf : DotDims.WF S8192x4096 S2816x4096 S8192x2816 [1] [1] [0] [0] [] []
  gather_S8192x11008_S11008x1_S8192x11008_0_1_n_n_1_1_81921_wf : GatherDims.WF S8192x11008 S11008x1 S8192x11008 [0] [1] [] [1] [] 1 ![8192, 1]

variable [Facts₀]

def dot_S8192x4096_S8192x4096_S8192x8192_1_1_0_0_n_n : DotDims S8192x4096 S8192x4096 S8192x8192 where
  lhsContracting := [1]
  rhsContracting := [1]
  lhsNonContracting := [0]
  rhsNonContracting := [0]
  lhsBatch := []
  rhsBatch := []
  wf := dot_S8192x4096_S8192x4096_S8192x8192_1_1_0_0_n_n_wf
def dot_S8192x4096_S2816x4096_S8192x2816_1_1_0_0_n_n : DotDims S8192x4096 S2816x4096 S8192x2816 where
  lhsContracting := [1]
  rhsContracting := [1]
  lhsNonContracting := [0]
  rhsNonContracting := [0]
  lhsBatch := []
  rhsBatch := []
  wf := dot_S8192x4096_S2816x4096_S8192x2816_1_1_0_0_n_n_wf
def gather_S8192x11008_S11008x1_S8192x11008_0_1_n_n_1_1_81921 : GatherDims S8192x11008 S11008x1 S8192x11008 where
  offsetDims := [0]
  collapsedSliceDims := [1]
  operandBatchingDims := []
  startIndicesBatchingDims := []
  startIndexMap := [1]
  indexVectorDim := 1
  sliceSizes := ![8192, 1]
  wf := gather_S8192x11008_S11008x1_S8192x11008_0_1_n_n_1_1_81921_wf

class Facts : Prop extends Facts₀ where

variable [Facts]
-- ==== Proof.KBody.lean ====
/-
  What one grid point's body leaves behind, as pure functions of what it found.

  The body keeps a 1024 × 1024 accumulator between the four points of one output block. Writing `P(a, x, w)` for the
  accumulator update `a + x · wᵀ` (the body's second stored value), the first point of a block stores the zero block and
  leaves `P(0, x, w)`; a middle point leaves `P(a, x, w)` of the accumulator `a` it found; the last point does the
  same and also leaves, in the output block, that new accumulator plus the bias row broadcast down the rows (the
  body's third stored value).
-/
import proofs.«177211_j6451040879136_1_alg».proof.Proof.Gen.KernelIdeal.Frame
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic Idealize.SL.Sem

variable {F : FTy → Type} [FloatOps F]

/-- The zero offsets of a whole-block access. -/
theorem hz : (![0, 0] : Fin 2 → Nat) = fun _ => 0 := funext fun a => by fin_cases a <;> rfl

/-- A middle point of a block leaves the accumulator it found plus this point's partial product. -/
theorem sout_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg7.read_unread, harg3.read_unread, harg4.read_unread,
    View.ld_unit_zero (S := S1024x1024) hz]

/-- The first point of a block stores the zero block, reads it back, and leaves zero plus its partial product. -/
theorem sout_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- The last point of a block updates the accumulator as a middle point does, -/
theorem sout_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg7.read_unread, harg3.read_unread, harg4.read_unread,
    View.ld_unit_zero (S := S1024x1024) hz]

/-- and leaves in the output block that new accumulator plus the bias row. -/
theorem out_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x1024) _ hz]
  simp only [View.readAt_eq_ld, harg7.read_unread, harg3.read_unread, harg4.read_unread, harg5.read_unread,
    View.ld_unit_zero (S := S1024x1024) hz, View.ld_unit_zero (S := S1x1024) hz]

end Cert.KernelIdeal.Body

end
-- ==== Proof.KCases.lean ====
/-
  What the accumulator and the output block hold after each grid point, case by case.

  After the first point of an output block the accumulator holds the update of the zero block by that point's
  blocks; after any later point, the update of what the point before left; and after the last point of the block the
  output block holds that new accumulator plus the bias row.
-/
import proofs.«177211_j6451040879136_1_alg».proof.Proof.KBody

set_option maxRecDepth 16384

noncomputable section

namespace Cert.KernelIdeal.Cases

open Cert.KernelIdeal Cert.KernelIdeal.Gen Cert.KernelIdeal.Body
open Idealize.ShloMosaic Idealize.ShloMosaic.TcCoe Idealize.SL.Sem

variable {F : FTy → Type} [FloatOps F]
variable (m : (ℓ : Loc nD τ sig) → Buf (Elt F) ℓ)

set_option maxHeartbeats 1000000 in
/-- First point of a block. -/
theorem scratch_A (c : Dev nD) (t : Fin cfg0.N) (h0 : t.val % 4 = 0) (h1 : ¬t.val % 4 = 3) :
    (outsAt0 m c t.val t.isLt).2 = k0_pay2 (k0_pay1 (F := F)) (iblk m c 0 t) (iblk m c 1 t) := by
  have e := congrArg Prod.snd (outsAt0_A m c t h0 h1)
  dsimp only at e
  exact e.trans (sout_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t))

set_option maxHeartbeats 1000000 in
/-- A middle point of a block. -/
theorem scratch_B (c : Dev nD) (t : Fin cfg0.N) (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  have e := congrArg Prod.snd (outsAt0_B m c t h0 h1)
  dsimp only at e
  exact e.trans (sout_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2)

set_option maxHeartbeats 1000000 in
/-- The last point of a block: the accumulator, -/
theorem scratch_C (c : Dev nD) (t : Fin cfg0.N) (h0 : ¬t.val % 4 = 0) (h1 : t.val % 4 = 3) :
    (outsAt0 m c t.val t.isLt).2 = k0_pay2 (outsAt0 m c (t.val - 1) (Nat.lt_of_le_of_lt (Nat.sub_le _ _) t.isLt)).2 (iblk m c 0 t) (iblk m c 1 t) := by
  have e := congrArg Prod.snd (outsAt0_C m c t h0 h1)
  dsimp only at e
  exact e.trans (sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2)

set_option maxHeartbeats 1000000 in
/-- and the output block. -/
theorem output_C (c : Dev nD) (t : Fin cfg0.N) (h0 : ¬t.val % 4 = 0) (h1 : t.val % 4 = 3) :
    (outsAt0 m c t.val t.isLt).1 = k0_pay3 (k0_pay2 (outsAt0 m c (t.val - 1) (Nat.lt_of_le_of_lt (Nat.sub_le _ _) t.isLt)).2 (iblk m c 0 t) (iblk m c 1 t)) (iblk m c 2 t) := by
  have e := congrArg Prod.fst (outsAt0_C m c t h0 h1)
  dsimp only at e
  exact e.trans (out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2)

end Cert.KernelIdeal.Cases

end
-- ==== Proof.LibTransposedProduct.lean ====
/-
  A matrix times the transpose of a matrix, read at an entry, over the extended reals; and four layout steps read at an index.

  A kernel's `tpu.matmul` whose dimension numbers contract the COLUMNS of both operands (an `m × k` matrix against an
  `n × k` one, no batch axis) and accumulate into the zero splat reads at `(a, b)` as `∑ c, A (a, c) · B (b, c)`: the entry
  of `A · Bᵀ`. The dimension numbers come as a record `d` of a printed program with the fact that it is that record
  (`rfl` at a printed record whose fields are literally those), so one lemma serves every such record at any extents.

  The layout steps: an `[a, 1, b]` array viewed as `[a, b]`; a one-row matrix turned into a column; a block of
  consecutive columns cut out of a matrix; and a load, out of an `[a, K, b]` array, of the `[a, 1, b]` slab at middle
  coordinate `k`.
-/
import Idealize.ShloMosaic.Lib.Pipeline.Value
import Idealize.ShloMosaic.Lib.Pipeline.FrameBody
import Idealize.ShloMosaic.Lib.ValueIdx
import Idealize.ShloMosaic.PureOps.Ideal.Laws

noncomputable section

open scoped BigOperators

namespace Cert.LibTransposedProduct

open Idealize.ShloMosaic Idealize.ShloMosaic.ValueIdx

/-- A kernel's product of `A` with the transpose of `B` into the zero accumulator, at `(a, b)`: the sum over the shared
    column coordinate. -/
theorem matmul_zero_apply_of_transposedRhs {m k n : ℕ} {φ₁ φ₂ : FTy} (d : DotDims ⟨2, ![m, k]⟩ ⟨2, ![n, k]⟩ ⟨2, ![m, n]⟩)
    (hd : d = DotDims.transposedRhs m k n) (prec : Option ContractPrecision)
    (A : FVec Ideal ⟨2, ![m, k]⟩ φ₁) (B : FVec Ideal ⟨2, ![n, k]⟩ φ₂) (a : Fin m) (b : Fin n) :
    matmul d prec A B (constant ⟨2, ![m, n]⟩ .f32 0x00000000#32) (ix2 a b) = ∑ c : Fin k, A (ix2 a c) * B (ix2 b c) := by
  subst hd
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

variable {α : Type}

/-- An `[a, 1, b]` array viewed as `[a, b]` reads, at `(i, j)`, the array at `(i, 0, j)`. -/
theorem squeeze_mid_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A one-row matrix turned into a column reads, at `(i, 0)`, the row at `(0, i)`. -/
theorem transpose_row_apply {a : ℕ} (x : (⟨2, ![1, a]⟩ : Shape).Idx → α)
    (h : (⟨2, ![1, a]⟩ : Shape).Transposes [1, 0] ⟨2, ![a, 1]⟩) (i : Fin a) :
    transpose ⟨2, ![a, 1]⟩ [1, 0] x h (ix2 i (0 : Fin 1)) = x (ix2 (0 : Fin 1) i) := by
  refine transpose_apply [1, 0] x h _ _ fun ax => ?_
  match ax with
  | ⟨0, _⟩ => rfl
  | ⟨1, _⟩ => rfl

/-- The `n` consecutive columns from column `off` of a matrix read, at `(i, j)`, the matrix at `(i, off + j)`. -/
theorem slice_cols_apply {r N n : ℕ} (off : ℕ) (x : (⟨2, ![r, N]⟩ : Shape).Idx → α)
    (h : (⟨2, ![r, N]⟩ : Shape).Slices ![0, off] ⟨2, ![r, n]⟩) (i : Fin r) (j : Fin n) (q : Fin N) (hq : q.val = off + j.val) :
    extractStridedSlice ⟨2, ![r, n]⟩ ![0, off] x h (ix2 i j) = x (ix2 i q) := by
  refine extractStridedSlice_apply ![0, off] x h _ _ fun ax => ?_
  match ax with
  | ⟨0, _⟩ => show i.val = 0 + i.val; omega
  | ⟨1, _⟩ => exact hq

/-- The `[a, 1, b]` slab at middle coordinate `k` loaded out of an `[a, K, b]` array reads, at `(i, 0, j)`, the array at
    `(i, k, j)`. -/
theorem ld_slab_apply {Val : EltTy → Type} {e : EltTy} {a K b : ℕ} (k : ℕ) (x : (⟨3, ![a, K, b]⟩ : Shape).Idx → Val e)
    (inb : ∀ ax, (![0, k, 0] : Fin 3 → ℕ) ax + (![a, 1, b] : Fin 3 → ℕ) ax ≤ (⟨3, ![a, K, b]⟩ : Shape).size ax)
    (i : Fin a) (j : Fin b) (q : Fin K) (hq : q.val = k) :
    View.ld x (Rect.unit (s := ⟨3, ![a, K, b]⟩) ![0, k, 0] ![a, 1, b] inb) (ix3 i (0 : Fin 1) j) = x (ix3 i q j) := by
  refine congrArg x (funext fun ax => Fin.ext ?_)
  match ax with
  | ⟨0, _⟩ => show 0 + 1 * i.val = i.val; omega
  | ⟨1, _⟩ => show k + 1 * 0 = q.val; omega
  | ⟨2, _⟩ => show 0 + 1 * j.val = j.val; omega

end Cert.LibTransposedProduct

end
-- ==== Proof.KPay.lean ====
/-
  The body's three stored values read at an entry, over the extended reals.

  The zero block is `0` everywhere. The accumulator update at `(a, b)` is the accumulator there plus
  `∑ kk, x (a, kk) · w (b, kk)`: the block product contracts the columns of both operands (the weight block is held
  row-per-output-channel), and a change of float format is the identity. The output value at `(a, b)` is the
  accumulator there plus the bias row's entry `b`.
-/
import proofs.«177211_j6451040879136_1_alg».proof.Proof.Gen.KernelIdeal.Skeleton
import proofs.«177211_j6451040879136_1_alg».proof.Proof.LibTransposedProduct
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Pay

open Cert.KernelIdeal Cert.KernelIdeal.Gen
open Idealize.ShloMosaic Idealize.ShloMosaic.ValueIdx

/-- The zero block. -/
theorem pay1_apply (a b : Fin 1024) : k0_pay1 (F := Ideal) (ix2 a b) = 0 := by
  unfold k0_pay1
  rw [shapeCast_self]
  exact Ideal.ofBits_zero_f32

/-- The accumulator update: the accumulator plus the block's partial product. -/
theorem pay2_apply (acc : FVec Ideal S1024x1024 .f32) (x w : FVec Ideal S1024x1024 .bf16) (a b : Fin 1024) :
    k0_pay2 acc x w (ix2 a b) = acc (ix2 a b) + ∑ kk : Fin 1024, x (ix2 a kk) * w (ix2 b kk) := by
  unfold k0_pay2
  simp only [shapeCast_self]
  exact congrArg (acc (ix2 a b) + ·)
    (Cert.LibTransposedProduct.matmul_zero_apply_of_transposedRhs
      dot_S1024x1024_S1024x1024_S1024x1024_1_1_0_0_n_n rfl none x w a b)

/-- The output value: the accumulator plus the bias row. -/
theorem pay3_apply (acc : FVec Ideal S1024x1024 .f32) (bias : FVec Ideal S1x1024 .f32) (a b : Fin 1024) :
    k0_pay3 acc bias (ix2 a b) = acc (ix2 a b) + bias (ix2 (0 : Fin 1) b) := by
  unfold k0_pay3
  simp only [shapeCast_self]
  exact congrArg (acc (ix2 a b) + ·) (broadcastTo_1b_ab_apply bias broadcasts_S1x1024_S1024x1024 a b)

end Cert.KernelIdeal.Pay

end
-- ==== Proof.KBlocks.lean ====
/-
  Where each window's block sits in its array.

  The grid runs over (row block `i` of 8, channel block `j` of 11, depth block `k` of 4), the depth innermost: point
  `t` is `(t / 44, t / 4 % 11, t % 4)`. The activations' block at `t` is block `(i, k)` of the [8192, 4096] array,
  the weights' block `(j, k)` of the [11264, 4096] one, the bias block `(0, j)` of the [1, 11264] row, the output
  block `(i, j)` of the [8192, 11264] result. An element of a block sits, on each axis, at the block index times 1024
  plus its own coordinate.
-/
import proofs.«177211_j6451040879136_1_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The four index maps at every grid point. -/
theorem idx_facts : ∀ t : Fin cfg0.N,
    win0_0.index t (0 : Fin 2) = t.val / 44 ∧ win0_0.index t (1 : Fin 2) = t.val % 4
    ∧ win0_1.index t (0 : Fin 2) = t.val / 4 % 11 ∧ win0_1.index t (1 : Fin 2) = t.val % 4
    ∧ win0_2.index t (0 : Fin 2) = 0 ∧ win0_2.index t (1 : Fin 2) = t.val / 4 % 11
    ∧ win0_3.index t (0 : Fin 2) = t.val / 44 ∧ win0_3.index t (1 : Fin 2) = t.val / 4 % 11 :=
  (by decide +kernel : ∀ t : Fin grid0.N, _)

/-- The activations' block at point `t`, read at `(a, kk)`. -/
theorem iblk0_apply (c : Dev nD) (t : Fin cfg0.N) (a kk : Fin 1024) (ri : Fin 8192) (ck : Fin 4096)
    (hr : ri.val = t.val / 44 * 1024 + a.val) (hc : ck.val = t.val % 4 * 1024 + kk.val) :
    (iblk m c 0 t : S1024x1024.Idx → F .bf16) (ix2 a kk) = (V m c main_v4 : S8192x4096.Idx → F .bf16) (ix2 ri ck) := by
  unfold iblk
  rw [View.read_apply]
  show V m c main_v4 _ = V m c main_v4 _
  refine congrArg _ (funext fun ax => Fin.ext ?_)
  match ax with
  | ⟨0, _⟩ =>
    show win0_0.index t 0 * 1024 + 1 * a.val = ri.val
    rw [(idx_facts t).1, hr]; omega
  | ⟨1, _⟩ =>
    show win0_0.index t 1 * 1024 + 1 * kk.val = ck.val
    rw [(idx_facts t).2.1, hc]; omega

/-- The weights' block at point `t`, read at `(b, kk)`. -/
theorem iblk1_apply (c : Dev nD) (t : Fin cfg0.N) (b kk : Fin 1024) (rj : Fin 11264) (ck : Fin 4096)
    (hr : rj.val = t.val / 4 % 11 * 1024 + b.val) (hc : ck.val = t.val % 4 * 1024 + kk.val) :
    (iblk m c 1 t : S1024x1024.Idx → F .bf16) (ix2 b kk) = (V m c main_v5 : S11264x4096.Idx → F .bf16) (ix2 rj ck) := by
  unfold iblk
  rw [View.read_apply]
  show V m c main_v5 _ = V m c main_v5 _
  refine congrArg _ (funext fun ax => Fin.ext ?_)
  match ax with
  | ⟨0, _⟩ =>
    show win0_1.index t 0 * 1024 + 1 * b.val = rj.val
    rw [(idx_facts t).2.2.1, hr]; omega
  | ⟨1, _⟩ =>
    show win0_1.index t 1 * 1024 + 1 * kk.val = ck.val
    rw [(idx_facts t).2.2.2.1, hc]; omega

/-- The bias block at point `t`, read at `(0, b)`. -/
theorem iblk2_apply (c : Dev nD) (t : Fin cfg0.N) (b : Fin 1024) (rj : Fin 11264)
    (hr : rj.val = t.val / 4 % 11 * 1024 + b.val) :
    (iblk m c 2 t : S1x1024.Idx → F .f32) (ix2 (0 : Fin 1) b) = (V m c main_v6 : S1x11264.Idx → F .f32) (ix2 (0 : Fin 1) rj) := by
  unfold iblk
  rw [View.read_apply]
  show V m c main_v6 _ = V m c main_v6 _
  refine congrArg _ (funext fun ax => Fin.ext ?_)
  match ax with
  | ⟨0, _⟩ =>
    show win0_2.index t 0 * 1 + 1 * 0 = 0
    rw [(idx_facts t).2.2.2.2.1]
  | ⟨1, _⟩ =>
    show win0_2.index t 1 * 1024 + 1 * b.val = rj.val
    rw [(idx_facts t).2.2.2.2.2.1, hr]; omega

end Cert.KernelIdeal.Blocks

end
-- ==== Proof.KSum.lean ====
/-
  A sum over 4096 columns, cut into four blocks of 1024 and accumulated block by block from zero.

  Addition in a commutative monoid may be regrouped freely, so `∑ k : Fin 4096, f k` is the sum over the four depth
  blocks of the block's partial sum, and that is `(((0 + P₀) + P₁) + P₂) + P₃`, the order in which the accumulator
  receives them. No finiteness is needed: only associativity and commutativity of `+` are used.
-/
import Mathlib.Algebra.BigOperators.Fin
import Mathlib.Algebra.BigOperators.Group.Finset.Basic
import Mathlib.Logic.Equiv.Fin.Basic

noncomputable section

open scoped BigOperators

namespace Cert.BlockSum

/-- Column `kk` of depth block `kb` (taken modulo 4, so that it is a column for every `kb`). -/
def col (kb : ℕ) (kk : Fin 1024) : Fin 4096 := ⟨kb % 4 * 1024 + kk.val, by have := kk.isLt; have := Nat.mod_lt kb (by decide : 0 < 4); omega⟩

theorem col_val (kb : ℕ) (kk : Fin 1024) : (col kb kk).val = kb % 4 * 1024 + kk.val := rfl

variable {M : Type*} [AddCommMonoid M]

/-- The partial sum of depth block `kb`. -/
def part (f : Fin 4096 → M) (kb : ℕ) : M := ∑ kk : Fin 1024, f (col kb kk)

/-- The accumulator after depth blocks `0 … n`: zero plus the first partial sum, then one more per block. -/
def upto (f : Fin 4096 → M) : ℕ → M
  | 0 => 0 + part f 0
  | n + 1 => upto f n + part f (n + 1)

theorem upto_zero (f : Fin 4096 → M) : upto f 0 = 0 + part f 0 := rfl
theorem upto_succ (f : Fin 4096 → M) (n : ℕ) : upto f (n + 1) = upto f n + part f (n + 1) := rfl

/-- The whole sum is the sum of the four partial sums. -/
theorem sum_eq_sum_parts (f : Fin 4096 → M) : ∑ k : Fin 4096, f k = ∑ kb : Fin 4, part f kb.val := by
  have e : ∑ k : Fin 4096, f k = ∑ p : Fin 4 × Fin 1024, f (finProdFinEquiv p) :=
    (Equiv.sum_comp (finProdFinEquiv (m := 4) (n := 1024)) f).symm
  rw [e, Fintype.sum_prod_type]
  refine Finset.sum_congr rfl fun kb _ => Finset.sum_congr rfl fun kk _ => congrArg f (Fin.ext ?_)
  show kk.val + 1024 * kb.val = kb.val % 4 * 1024 + kk.val
  have := kb.isLt
  omega

/-- After the fourth block the accumulator holds the whole sum. -/
theorem upto_three (f : Fin 4096 → M) : upto f 3 = ∑ k : Fin 4096, f k := by
  rw [sum_eq_sum_parts, Fin.sum_univ_four]
  simp only [upto, zero_add]
  rfl

end Cert.BlockSum

end
-- ==== Proof.KInv.lean ====
/-
  The accumulator across a block's four points, and the output array after the run.

  Write `X`, `W`, `B` for the three arrays the region finds (activations [8192, 4096], permuted and padded weights
  [11264, 4096], padded bias [1, 11264]). By induction on the grid point, after point `t = (i, j, k)` the accumulator
  holds at `(a, b)` the partial sums of depth blocks `0 … k` of row `1024 i + a` of `X` against row `1024 j + b` of
  `W`, accumulated from zero in that order. After the fourth point that is the whole sum over the 4096 columns, and
  the output block receives it plus `B (0, 1024 j + b)`. The output's blocks `(i, j)` tile the [8192, 11264] result, each
  written back once, at its fourth point; so the result array ends as `X · Wᵀ + B`, entry by entry.
-/
import proofs.«177211_j6451040879136_1_alg».proof.Proof.KCases
import proofs.«177211_j6451040879136_1_alg».proof.Proof.KPay
import proofs.«177211_j6451040879136_1_alg».proof.Proof.KBlocks
import proofs.«177211_j6451040879136_1_alg».proof.Proof.KSum

set_option maxRecDepth 16384

noncomputable section

open scoped BigOperators

namespace Cert.KernelIdeal.Region

open Cert.KernelIdeal Cert.KernelIdeal.Gen
open Cert.KernelIdeal.Cases Cert.KernelIdeal.Pay Cert.KernelIdeal.Blocks Cert.BlockSum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The products whose sum is entry `(ri, rj)` of `X · Wᵀ`. -/
def prodRow (X : S8192x4096.Idx → EReal) (W : S11264x4096.Idx → EReal) (ri : Fin 8192) (rj : Fin 11264) :
    Fin 4096 → EReal := fun k => X (ix2 ri k) * W (ix2 rj k)

/-- Entry `(ri, rj)` of the result the region leaves. -/
def outAt (X : S8192x4096.Idx → EReal) (W : S11264x4096.Idx → EReal) (B : S1x11264.Idx → EReal)
    (ri : Fin 8192) (rj : Fin 11264) : EReal :=
  (∑ k : Fin 4096, prodRow X W ri rj k) + B (ix2 (0 : Fin 1) rj)

/-- The result the region leaves, as one function of the three arrays it finds. -/
def outFn (X : S8192x4096.Idx → EReal) (W : S11264x4096.Idx → EReal) (B : S1x11264.Idx → EReal) :
    S8192x11264.Idx → EReal := fun q => outAt X W B (q 0) (q 1)

/-- One block's partial product at `(a, b)`: the rows `a` of the activations' block and `b` of the weights' block,
    multiplied column by column and summed. -/
def dot (x w : FVec Ideal S1024x1024 .bf16) (a b : Fin 1024) : EReal := ∑ kk : Fin 1024, x (ix2 a kk) * w (ix2 b kk)

/-- The accumulator update at `(a, b)`, with the partial product named. -/
theorem pay2_dot (acc : FVec Ideal S1024x1024 .f32) (x w : FVec Ideal S1024x1024 .bf16) (a b : Fin 1024) :
    k0_pay2 acc x w (ix2 a b) = acc (ix2 a b) + dot x w a b := pay2_apply acc x w a b

/-- One point's partial product at `(a, b)` is the partial sum of the point's depth block. -/
theorem step_sum (c : Dev nD) (t : Fin cfg0.N) (a b : Fin 1024) (ri : Fin 8192) (rj : Fin 11264)
    (hri : ri.val = t.val / 44 * 1024 + a.val) (hrj : rj.val = t.val / 4 % 11 * 1024 + b.val) :
    dot (iblk m c 0 t) (iblk m c 1 t) a b
      = part (prodRow (V m c main_v4) (V m c main_v5) ri rj) (t.val % 4) := by
  unfold dot part
  refine Finset.sum_congr rfl fun kk _ => ?_
  have hc : (col (t.val % 4) kk).val = t.val % 4 * 1024 + kk.val := by rw [col_val, Nat.mod_mod]
  exact congrArg₂ (fun (u v : EReal) => u * v)
    (iblk0_apply m c t a kk ri (col (t.val % 4) kk) hri hc)
    (iblk1_apply m c t b kk rj (col (t.val % 4) kk) hrj hc)

/-- THE ACCUMULATOR after point `n`, entry by entry: the partial sums of depth blocks `0 … n % 4`, from zero. -/
theorem acc_inv (c : Dev nD) : ∀ (n : ℕ) (h : n < cfg0.N) (a b : Fin 1024) (ri : Fin 8192) (rj : Fin 11264),
    ri.val = n / 44 * 1024 + a.val → rj.val = n / 4 % 11 * 1024 + b.val →
    ((outsAt0 m c n h).2 : S1024x1024.Idx → EReal) (ix2 a b)
      = upto (prodRow (V m c main_v4) (V m c main_v5) ri rj) (n % 4)
  | 0, h, a, b, ri, rj, hri, hrj => by
    refine (congrFun (scratch_A m c ⟨0, h⟩ rfl (by show ¬(0 % 4 = 3); decide)) (ix2 a b)).trans ?_
    refine (pay2_dot (k0_pay1 (F := Ideal)) (iblk m c 0 ⟨0, h⟩) (iblk m c 1 ⟨0, h⟩) a b).trans ?_
    refine (congrArg₂ (fun (u v : EReal) => u + v) (pay1_apply a b) (step_sum m c ⟨0, h⟩ a b ri rj hri hrj)).trans ?_
    rfl
  | n + 1, h, a, b, ri, rj, hri, hrj => by
    have hN : n + 1 < 352 := lt_of_lt_of_eq h (show cfg0.N = 352 from N_0)
    by_cases h0 : (n + 1) % 4 = 0
    · have h1 : ¬(n + 1) % 4 = 3 := by omega
      refine (congrFun (scratch_A m c ⟨n + 1, h⟩ h0 h1) (ix2 a b)).trans ?_
      refine (pay2_dot (k0_pay1 (F := Ideal)) (iblk m c 0 ⟨n + 1, h⟩) (iblk m c 1 ⟨n + 1, h⟩) a b).trans ?_
      refine (congrArg₂ (fun (u v : EReal) => u + v) (pay1_apply a b) (step_sum m c ⟨n + 1, h⟩ a b ri rj hri hrj)).trans ?_
      show 0 + part _ ((n + 1) % 4) = upto _ ((n + 1) % 4)
      rw [h0]
      rfl
    · have ih := acc_inv c n (Nat.lt_of_succ_lt h) a b ri rj (by omega) (by omega)
      have e4 : (n + 1) % 4 = n % 4 + 1 := by omega
      have hstep := step_sum m c ⟨n + 1, h⟩ a b ri rj hri hrj
      by_cases h1 : (n + 1) % 4 = 3
      · refine (congrFun (scratch_C m c ⟨n + 1, h⟩ h0 h1) (ix2 a b)).trans ?_
        refine (pay2_dot _ (iblk m c 0 ⟨n + 1, h⟩) (iblk m c 1 ⟨n + 1, h⟩) a b).trans ?_
        refine (congrArg₂ (fun (u v : EReal) => u + v) ih hstep).trans ?_
        show upto _ (n % 4) + part _ ((n + 1) % 4) = upto _ ((n + 1) % 4)
        rw [e4]
        rfl
      · refine (congrFun (scratch_B m c ⟨n + 1, h⟩ h0 h1) (ix2 a b)).trans ?_
        refine (pay2_dot _ (iblk m c 0 ⟨n + 1, h⟩) (iblk m c 1 ⟨n + 1, h⟩) a b).trans ?_
        refine (congrArg₂ (fun (u v : EReal) => u + v) ih hstep).trans ?_
        show upto _ (n % 4) + part _ ((n + 1) % 4) = upto _ ((n + 1) % 4)
        rw [e4]
        rfl

/-- THE OUTPUT BLOCK after a block's last point, entry by entry. -/
theorem out_block (c : Dev nD) (t : Fin cfg0.N) (h3 : t.val % 4 = 3) (a b : Fin 1024) (ri : Fin 8192) (rj : Fin 11264)
    (hri : ri.val = t.val / 44 * 1024 + a.val) (hrj : rj.val = t.val / 4 % 11 * 1024 + b.val) :
    ((outsAt0 m c t.val t.isLt).1 : S1024x1024.Idx → EReal) (ix2 a b)
      = outAt (V m c main_v4) (V m c main_v5) (V m c main_v6) ri rj := by
  have h0 : ¬t.val % 4 = 0 := by omega
  refine (congrFun (output_C m c t h0 h3) (ix2 a b)).trans ?_
  refine (pay3_apply _ (iblk m c 2 t) a b).trans ?_
  have hacc := (congrFun (scratch_C m c t h0 h3) (ix2 a b)).symm.trans
    (acc_inv m c t.val t.isLt a b ri rj hri hrj)
  refine (congrArg₂ (fun (u v : EReal) => u + v) hacc (iblk2_apply m c t b rj hrj)).trans ?_
  rw [h3, upto_three]
  rfl

end Cert.KernelIdeal.Region

end
-- ==== Proof.KFinal.lean ====
/-
  From the output's blocks to the whole result array, and the slice the program returns.

  At the last point of block `(i, j)` the window writes back a 1024 × 1024 block whose entry `(a, b)` sits at
  `(1024 i + a, 1024 j + b)` of the [8192, 11264] result, and holds `X · Wᵀ + B` there. Entry `(r, s)` of the result is
  covered by the block of the point `((r / 1024) · 11 + s / 1024) · 4 + 3`. So the result array is `X · Wᵀ + B`, and the
  program returns its first 11008 columns.
-/
import proofs.«177211_j6451040879136_1_alg».proof.Proof.KInv
import proofs.«177211_j6451040879136_1_alg».proof.Proof.LibTransposedProduct
import Idealize.ShloMosaic.Lib.StableHlo.Run

set_option maxRecDepth 16384

noncomputable section

open scoped BigOperators

namespace Cert.KernelIdeal.Region

open Cert.KernelIdeal Cert.KernelIdeal.Gen
open Cert.KernelIdeal.Blocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- WHAT A BLOCK'S LAST POINT WRITES BACK is that block of `X · Wᵀ + B`. -/
theorem flushed_eq (c : Dev nD) (t : Fin cfg0.N) (hf : (cfg0.win 3).flush t = true) :
    (dats m 0 c).flushed 3 t
      = ((cfg0.win 3).blk t).view.read (Elt Ideal) (outFn (V m c main_v4) (V m c main_v5) (V m c main_v6)) := by
  have h3 : t.val % 4 = 3 := (flush0_3 t).mp hf
  show (cfg0.win 3).cut (grid0.coords t) ((dats m 0 c).after 3 t) = _
  rw [after0_3]
  funext y
  obtain ⟨a, b, rfl⟩ : ∃ (a b : Fin 1024), y = ix2 a b := ⟨y 0, y 1, eq_ix2 y⟩
  show ((outsAt0 m c t.val t.isLt).1 : S1024x1024.Idx → EReal) (ix2 a b)
    = outFn (V m c main_v4) (V m c main_v5) (V m c main_v6) (((cfg0.win 3).blk t).view.emb (ix2 a b))
  have e0 : ((((cfg0.win 3).blk t).view.emb (ix2 a b)) 0).val = t.val / 44 * 1024 + a.val := by
    show win0_3.index t 0 * 1024 + 1 * a.val = _
    rw [(idx_facts t).2.2.2.2.2.2.1]; omega
  have e1 : ((((cfg0.win 3).blk t).view.emb (ix2 a b)) 1).val = t.val / 4 % 11 * 1024 + b.val := by
    show win0_3.index t 1 * 1024 + 1 * b.val = _
    rw [(idx_facts t).2.2.2.2.2.2.2]; omega
  exact out_block m c t h3 a b _ _ e0 e1

/-- An index of the result is in point `t`'s block iff each coordinate is in the block's range on its axis. -/
theorem mem_blk (t : Fin cfg0.N) (i : S8192x11264.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v7).slice (win0_3.rect t)).set ↔ _
  rw [View.set_slice_whole, Rect.mem_set_unit]
  exact Iff.rfl

/-- Every entry of the result lies in the block some block-final point writes back. -/
theorem cover (i : S8192x11264.Idx) :
    ∃ t : Fin cfg0.N, (cfg0.win 3).flush t = true ∧ i ∈ ((cfg0.win 3).blk t).view.set := by
  have hi0 : (i 0).val < 8192 := (i 0).isLt
  have hi1 : (i 1).val < 11264 := (i 1).isLt
  have hN : cfg0.N = 352 := N_0
  obtain ⟨tv, htv⟩ : ∃ tv : ℕ, tv = ((i 0).val / 1024 * 11 + (i 1).val / 1024) * 4 + 3 := ⟨_, rfl⟩
  have hlt : tv < cfg0.N := by rw [hN]; omega
  refine ⟨⟨tv, hlt⟩, (flush0_3 ⟨tv, hlt⟩).mpr (by show tv % 4 = 3; omega), ?_⟩
  rw [mem_blk]
  have e6 : win0_3.index ⟨tv, hlt⟩ (0 : Fin 2) = tv / 44 := (idx_facts ⟨tv, hlt⟩).2.2.2.2.2.2.1
  have e7 : win0_3.index ⟨tv, hlt⟩ (1 : Fin 2) = tv / 4 % 11 := (idx_facts ⟨tv, hlt⟩).2.2.2.2.2.2.2
  intro a
  match a with
  | ⟨0, _⟩ =>
    show win0_3.index ⟨tv, hlt⟩ (0 : Fin 2) * 1024 ≤ (i 0).val ∧ (i 0).val < win0_3.index ⟨tv, hlt⟩ (0 : Fin 2) * 1024 + 1024
    rw [e6]; omega
  | ⟨1, _⟩ =>
    show win0_3.index ⟨tv, hlt⟩ (1 : Fin 2) * 1024 ≤ (i 1).val ∧ (i 1).val < win0_3.index ⟨tv, hlt⟩ (1 : Fin 2) * 1024 + 1024
    rw [e7]; omega

/-- THE RESULT ARRAY after the region is `X · Wᵀ + B`. -/
theorem final (c : Dev nD) :
    (dats m 0 c).arrAt 3 cfg0.N = outFn (V m c main_v4) (V m c main_v5) (V m c main_v6) :=
  (dats m 0 c).arrAt_eq_of_cover 3 _ (fun t hf => flushed_eq m c t hf) cover

/-- What the program returns: the first 11008 columns of the region's result. -/
def resFn (X : S8192x4096.Idx → EReal) (W : S11264x4096.Idx → EReal) (B : S1x11264.Idx → EReal) :
    S8192x11008.Idx → EReal :=
  extractStridedSlice S8192x11008 ![0, 0] (outFn X W B) slices_S8192x11264_S8192x11008_0_0

/-- The one host operation after the region slices those columns out of the result array. -/
theorem tail_eq (c : Dev nD) :
    Pipeline.afterTail₀ cfgs (dats m) 0 (V0 m) [hostOps1] c main_v8
      = resFn (V m c main_v4) (V m c main_v5) (V m c main_v6) := by
  unfold Pipeline.afterTail₀
  show StableHlo.after hostOps1 _ (Proc.devRef .tc main_v8) = _
  after_results
  unfold resFn
  rw [← final m c]
  exact congrArg (fun x => extractStridedSlice S8192x11008 ![0, 0] x slices_S8192x11264_S8192x11008_0_0)
    (Pipeline.withArrays_arr spec0 launch0.win.arr_inj c _ _ 3)

/-- THE KERNEL PROGRAM'S RUN, READ: the result at the slice of `X · Wᵀ + B`, the five arguments unchanged. -/
theorem run : θ_run defs (onTc (τ := τ) (main (F := Ideal))) ⟨m, fun _ => 0, ρ⟩ fun r => ∀ c : Dev nD,
      r.2.mem ((c.tc : Thread nD τ).loc main_v8) = resFn (V m c main_v4) (V m c main_v5) (V m c main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Region

end
-- ==== Proof.Spec.lean ====
/-
  The common value of the two programs, as one function of the five argument arrays.

  Both programs compute, at row `i` and output channel `j`,

      (∑ k, x[i, k] · Wcat[r(j), k]) + bias[j],

  where `Wcat` is the int4 weight table laid over the int8 one (11008 rows of 4096), and `r(j)` is the row the
  index word `inv_perm[j]` selects: a negative word is wrapped by adding 11008 (Python's indexing from the end), and
  the wrapped word, read signed, is clamped into [0, 11007] (a gather's start index). One program permutes the rows of
  `Wcat` before the product, the other permutes the columns of the product; for an index word in range,
  `-11008 ≤ inv_perm[j] < 11008`, the wrapped word is a valid row and neither program substitutes its fill value.
-/
import Idealize.ShloMosaic.Lib.ValueIdx
import Idealize.ShloMosaic.PureOps.Ideal

noncomputable section

open scoped BigOperators

namespace Cert.Spec

open Idealize.ShloMosaic Idealize.ShloMosaic.ValueIdx

/-- An index word wrapped as Python wraps a negative index into an axis of extent 11008: `a + 11008` when `a`, read
    signed, is negative, else `a`. -/
def wrap (a : BitVec 32) : BitVec 32 :=
  Scalar.select (IntOp.cmpi .slt a 0#32) (IntOp.addi a 11008#32) a

/-- The index words for which indexing an axis of extent 11008 is defined: `-11008 ≤ a < 11008`, read signed. -/
def InRange (a : BitVec 32) : Prop := -11008 ≤ a.toInt ∧ a.toInt < 11008

/-- The row an index word selects: the wrapped word, read signed, clamped into `[0, 11007]`. -/
def sel (a : BitVec 32) : Fin 11008 := ⟨min (wrap a).toInt.toNat 11007, by omega⟩

/-- Row `c` of the two weight tables laid one over the other: the first 8192 rows are the first table's, the
    remaining 2816 the second's. -/
def wrow (w4 : (⟨2, ![8192, 4096]⟩ : Shape).Idx → EReal) (w8 : (⟨2, ![2816, 4096]⟩ : Shape).Idx → EReal)
    (c : Fin 11008) (k : Fin 4096) : EReal :=
  if h : c.val < 8192 then w4 (ix2 (⟨c.val, h⟩ : Fin 8192) k)
  else w8 (ix2 (⟨c.val - 8192, by have := c.isLt; omega⟩ : Fin 2816) k)

/-- The result at row `i`, channel `j`. -/
def Gat (x : (⟨2, ![8192, 4096]⟩ : Shape).Idx → EReal) (w4 : (⟨2, ![8192, 4096]⟩ : Shape).Idx → EReal)
    (w8 : (⟨2, ![2816, 4096]⟩ : Shape).Idx → EReal) (p : (⟨1, ![11008]⟩ : Shape).Idx → BitVec 32)
    (b : (⟨1, ![11008]⟩ : Shape).Idx → EReal) (i : Fin 8192) (j : Fin 11008) : EReal :=
  (∑ k : Fin 4096, x (ix2 i k) * wrow w4 w8 (sel (p (ix1 j))) k) + b (ix1 j)

/-- The result array. -/
def G (x : (⟨2, ![8192, 4096]⟩ : Shape).Idx → EReal) (w4 : (⟨2, ![8192, 4096]⟩ : Shape).Idx → EReal)
    (w8 : (⟨2, ![2816, 4096]⟩ : Shape).Idx → EReal) (p : (⟨1, ![11008]⟩ : Shape).Idx → BitVec 32)
    (b : (⟨1, ![11008]⟩ : Shape).Idx → EReal) : (⟨2, ![8192, 11008]⟩ : Shape).Idx → EReal :=
  fun q => Gat x w4 w8 p b (q 0) (q 1)

theorem G_ix2 (x : (⟨2, ![8192, 4096]⟩ : Shape).Idx → EReal) (w4 : (⟨2, ![8192, 4096]⟩ : Shape).Idx → EReal)
    (w8 : (⟨2, ![2816, 4096]⟩ : Shape).Idx → EReal) (p : (⟨1, ![11008]⟩ : Shape).Idx → BitVec 32)
    (b : (⟨1, ![11008]⟩ : Shape).Idx → EReal) (i : Fin 8192) (j : Fin 11008) :
    G x w4 w8 p b (ix2 i j) = Gat x w4 w8 p b i j := rfl

/-- A wrapped in-range word, read signed, is a row number: it lies in `[0, 11007]`. -/
theorem wrap_toInt_of_inRange (a : BitVec 32) (h : InRange a) : 0 ≤ (wrap a).toInt ∧ (wrap a).toInt ≤ 11007 := by
  obtain ⟨h1, h2⟩ := h
  unfold wrap IntOp.cmpi IntOp.addi Scalar.select
  by_cases hn : a.slt 0#32 = true
  · have hneg : a.toInt < 0 := by
      have := (BitVec.slt_iff_toInt_lt (x := a) (y := 0#32)).mp hn
      simpa using this
    simp only [hn, BitVec.ofBool_true, if_true]
    have : (a + 11008#32).toInt = a.toInt + 11008 := by
      rw [BitVec.toInt_add]
      have e : (11008#32 : BitVec 32).toInt = 11008 := by decide
      rw [e]
      exact Int.bmod_eq_of_le (by omega) (by omega)
    rw [this]; omega
  · have hnn : ¬ a.toInt < 0 := by
      intro hlt
      exact hn ((BitVec.slt_iff_toInt_lt (x := a) (y := 0#32)).mpr (by simpa using hlt))
    have hf : a.slt 0#32 = false := by simpa using hn
    simp only [hf, BitVec.ofBool_false]
    rw [if_neg (by decide)]
    omega

end Cert.Spec

end
-- ==== Proof.TakeWords.lean ====
/-
  The index words of `jnp.take` along an axis of extent 11008, read at an index.

  The lowered code wraps each index word `p` (a negative word gets 11008 added), tests the wrapped word against the
  bounds `0 ≤ · ≤ 11007` (two signed comparisons joined by `and`, then an `and`-reduction over the unit axis of the
  index column), gathers at the wrapped word, and substitutes a fill value where the test fails. For a word in range,
  `-11008 ≤ p < 11008`, the wrapped word is a row number, so the test is 1. The lemmas are stated over any shape and
  any evidence the operations carry, so that both programs' spellings of these lines are instances.
-/
import proofs.«177211_j6451040879136_1_alg».proof.Proof.Spec
import Idealize.ShloMosaic.Lib.ReduceAll

noncomputable section

namespace Cert.TakeWords

open Idealize.ShloMosaic Idealize.ShloMosaic.ValueIdx

/-! ## Words -/

/-- The bounds test on the wrapped word of an in-range index word is 1. -/
theorem inb_word (a : BitVec 32) (h : Cert.Spec.InRange a) :
    IntOp.andi (IntOp.cmpi .sge (Cert.Spec.wrap a) 0#32) (IntOp.cmpi .sle (Cert.Spec.wrap a) 11007#32) = 1#1 := by
  obtain ⟨h0, h1⟩ := Cert.Spec.wrap_toInt_of_inRange a h
  rw [IntOp.andi_eq_one, IntOp.cmpi_sge, IntOp.cmpi_sle]
  have e0 : (0#32 : BitVec 32).toInt = 0 := by decide
  have e1 : (11007#32 : BitVec 32).toInt = 11007 := by decide
  rw [e0, e1]
  exact ⟨h0, h1⟩

/-! ## Vectors at an index -/

section Vectors
variable {s : Shape}

/-- A scalar constant broadcast to any shape reads as the constant. -/
theorem bcast_scalar_apply {w : Nat} (dims : Fin (⟨0, ![]⟩ : Shape).rank → Fin s.rank)
    (h : (⟨0, ![]⟩ : Shape).BroadcastsInDim s dims) (c : BitVec w) (i : s.Idx) :
    broadcastInDim s dims h (constantI (⟨0, ![]⟩ : Shape) w c) i = c := rfl

/-- The wrapped index vector `select (p <s 0) (p + 11008) p` at an index is the wrapped word. -/
theorem wrapped_apply (p zero c : IVec s 32) (hz : ∀ i, zero i = 0#32) (hc : ∀ i, c i = 11008#32) (i : s.Idx) :
    select (cmpi .slt p zero) (addi p c) p i = Cert.Spec.wrap (p i) := by
  show Scalar.select (IntOp.cmpi .slt (p i) (zero i)) (IntOp.addi (p i) (c i)) (p i) = _
  rw [hz, hc]
  rfl

/-- The bounds test `(q ≥s 0) & (q ≤s 11007)` at an index where `q` holds the wrapped word of an in-range index
    word is 1. -/
theorem inb_apply (q zero c : IVec s 32) (hz : ∀ i, zero i = 0#32) (hc : ∀ i, c i = 11007#32) (i : s.Idx)
    (a : BitVec 32) (ha : Cert.Spec.InRange a) (hq : q i = Cert.Spec.wrap a) :
    andi (cmpi .sge q zero) (cmpi .sle q c) i = 1#1 := by
  show IntOp.andi (IntOp.cmpi .sge (q i) (zero i)) (IntOp.cmpi .sle (q i) (c i)) = 1#1
  rw [hz, hc, hq]
  exact inb_word a ha

end Vectors

/-- A vector `[n]` broadcast along a new trailing axis to `[n, C]` (`dims = [0]`) reads, at `(r, c)`, its entry `r`. -/
theorem bcast_axis0_apply {α : Type} {n C : Nat}
    (h : (⟨1, ![n]⟩ : Shape).BroadcastsInDim (⟨2, ![n, C]⟩ : Shape) (![0] : Fin 1 → Fin 2))
    (x : (⟨1, ![n]⟩ : Shape).Idx → α) (r : Fin n) (c : Fin C) :
    broadcastInDim (⟨2, ![n, C]⟩ : Shape) (![0] : Fin 1 → Fin 2) h x (ix2 r c) = x (ix1 r) := by
  unfold broadcastInDim
  refine congrArg x (funext fun a => Fin.ext ?_)
  match a with
  | ⟨0, _⟩ =>
    split
    · rename_i h1
      have hn : n = 1 := h1
      have := r.isLt
      show 0 = r.val
      omega
    · rfl

/-! ## The `and`-reduction of a mask of ones -/

/-- A left fold by `and` from 1 over words that are all 1 is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hf => by
    rw [List.foldl_cons]
    refine foldl_andi_one f l _ ?_ (fun n hn => hf n (List.mem_cons_of_mem _ hn))
    rw [hi, hf a (List.mem_cons_self ..)]
    decide

/-- A `stablehlo.reduce` by `and` from the constant 1 is 1 at `j` when the operand is 1 at every index that reduces
    into `j`. -/
theorem reduce_andi_eq_one_of_forall {s t u : Shape} {axes : List (Fin s.rank)} (x : s.Idx → BitVec 1)
    (init : u.Idx → BitVec 1) (h : s.ReducesTo axes t) (hu : 0 < u.numel) (j : t.Idx)
    (hinit : ∀ k, init k = 1#1) (hx : ∀ i, h.drop i = j → x i = 1#1) :
    Host.reduce IntOp.andi x init h hu j = 1#1 := by
  rw [Host.reduce_eq_foldl]
  refine foldl_andi_one x _ _ (hinit _) (fun i hi => ?_)
  rw [List.mem_filter] at hi
  exact hx i (by simpa using hi.2)

end Cert.TakeWords

end
-- ==== Proof.LibRowGatherScatter.lean ====
/-
  Row gather and row scatter-add, read at an index.

  jax's `A[idx]` for a table `A : [N, C]` and an index column `idx : [E, 1]` is a gather whose result row `e` is the
  table's row `idx[e, 0]`, the start index read as a signed integer and clamped into `[0, N - 1]`
  (`rowGather_apply`). jax's `segment_sum` of rows `upd : [E, C]` into `[N, C]` is a float scatter-add: at the exact
  (extended-real) values, element `(i, c)` of the result is the operand's plus the sum of `upd (e, c)` over the
  edges `e` whose index, read signed and NOT clamped, is `i` (`rowScatterAdd_apply`); an edge whose index is outside
  `[0, N)` contributes nothing. The same for a vector of per-edge scalars scattered into `[N]`
  (`vecScatterAdd_apply`). Every statement is over generic extents; no index set is enumerated.
-/
import Idealize.ShloMosaic.Lib.ValueIdx
import Idealize.ShloMosaic.PureOps.Ideal.Laws

noncomputable section

open scoped BigOperators

namespace Cert.Lib.RowGatherScatter

open Idealize.ShloMosaic Idealize.ShloMosaic.ValueIdx

/-! ## The row gather -/

/-- The dimension numbers of `A[idx]` for an operand `[N, C]`, start indices `[E, 1]` and result `[E, C]`: the row
    axis is collapsed and indexed by the one component of the start index, the column axis is the offset axis and is
    taken whole (slice sizes `[1, C]`). Their conditions `wf` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into `[0, N - 1]`, and
    column `c`. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hst : (rowGatherDims N E C wf).start (ix2 e c) idx 1 = 0 := by
      unfold GatherDims.start
      rw [dif_neg (show (1 : Fin 2) ∉ ([0] : List (Fin 2)) by decide)]
    rw [hst]
    simp only [Nat.add_zero, Nat.zero_add]
    rfl

/-! ## The row scatter-add -/

/-- The dimension numbers of `segment_sum` of rows: an operand `[N, C]`, scatter indices `[E, 1]` and updates `[E, C]`;
    the row axis is the inserted window axis, addressed by the one component of the scatter index, the column axis is
    the updates' window axis. Their conditions `wf` are decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window of update `(e, c)` starts at `idx[e, 0]`, read signed. -/
theorem rowScatter_start_row {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not address, the window starts at `0`. -/
theorem rowScatter_start_col {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ ([0] : List (Fin 2)) by decide)]

/-- The row axis is inserted: the window coordinate there is `0`. -/
theorem rowScatter_window_row {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 0 = 0 := by
  unfold ScatterDims.window
  rw [dif_neg (show (0 : Fin 2) ∉ (⟨2, ![N, C]⟩ : Shape).kept ([0] : List (Fin 2)) by simp [Shape.kept])]

/-- On the column axis the window coordinate of update `(e, c)` is `c`. -/
theorem rowScatter_window_col {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 1 = c.val := by
  rfl

/-- WHERE AN UPDATE LANDS: update `(e, c)` goes to element `(i, c')` exactly when its scatter index `idx[e, 0]`, read
    signed and not clamped, is `i`, and `c' = c`; with an index outside `[0, N)` it goes nowhere. -/
theorem rowScatter_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (i : Fin N) (c' : Fin C) :
    (rowScatterDims N E C wf).resultIdx? (ix2 e c) idx = some (ix2 i c')
      ↔ (idx (ix2 e (0 : Fin 1))).toInt = (i.val : Int) ∧ c = c' := by
  have h0 := rowScatter_start_row wf idx e c
  have h1 := rowScatter_start_col wf idx e c
  have w0 := rowScatter_window_row wf e c
  have w1 := rowScatter_window_col wf e c
  unfold ScatterDims.resultIdx?
  split
  · rename_i h
    rw [Option.some.injEq]
    constructor
    · intro hf
      have e0 : ((rowScatterDims N E C wf).start (ix2 e c) idx 0
          + ((rowScatterDims N E C wf).window (ix2 e c) 0 : Nat)).toNat = i.val :=
        congrArg Fin.val (congrFun hf 0)
      have e1 : ((rowScatterDims N E C wf).start (ix2 e c) idx 1
          + ((rowScatterDims N E C wf).window (ix2 e c) 1 : Nat)).toNat = c'.val :=
        congrArg Fin.val (congrFun hf 1)
      have b0 := (h 0).1
      rw [h0, w0] at e0 b0
      rw [h1, w1] at e1
      refine ⟨by omega, Fin.ext (by omega)⟩
    · rintro ⟨ht, hc⟩
      subst hc
      funext a
      refine Fin.ext ?_
      match a with
      | ⟨0, _⟩ =>
        show ((rowScatterDims N E C wf).start (ix2 e c) idx 0
          + ((rowScatterDims N E C wf).window (ix2 e c) 0 : Nat)).toNat = i.val
        rw [h0, w0, ht]; omega
      | ⟨1, _⟩ =>
        show ((rowScatterDims N E C wf).start (ix2 e c) idx 1
          + ((rowScatterDims N E C wf).window (ix2 e c) 1 : Nat)).toNat = c.val
        rw [h1, w1]; omega
  · rename_i h
    constructor
    · intro hf; exact absurd hf (by simp)
    · rintro ⟨ht, -⟩
      exfalso; apply h
      intro a
      match a with
      | ⟨0, _⟩ =>
        show 0 ≤ (rowScatterDims N E C wf).start (ix2 e c) idx 0 + ((rowScatterDims N E C wf).window (ix2 e c) 0 : Nat)
          ∧ (rowScatterDims N E C wf).start (ix2 e c) idx 0 + ((rowScatterDims N E C wf).window (ix2 e c) 0 : Nat) < (N : Int)
        rw [h0, w0, ht]; have := i.isLt; omega
      | ⟨1, _⟩ =>
        show 0 ≤ (rowScatterDims N E C wf).start (ix2 e c) idx 1 + ((rowScatterDims N E C wf).window (ix2 e c) 1 : Nat)
          ∧ (rowScatterDims N E C wf).start (ix2 e c) idx 1 + ((rowScatterDims N E C wf).window (ix2 e c) 1 : Nat) < (C : Int)
        rw [h1, w1]; have := c.isLt; omega

/-- THE ROW SCATTER-ADD READ AT `(i, c)`, at the exact values: the operand's element plus the sum, over the edges `e`
    whose scatter index `idx[e, 0]` (signed, not clamped) is `i`, of the update's element `(e, c)`. The update indices
    landing on `(i, c)` are exactly the `(e, c)` with `idx[e, 0] = i`, and `e ↦ (e, c)` enumerates them once each. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (i : Fin N) (c : Fin C) :
    Host.scatterAdd (F := Ideal) (φ := .f32) (rowScatterDims N E C wf) x idx upd (ix2 i c)
      = x (ix2 i c) + ∑ e ∈ Finset.univ.filter (fun e : Fin E => (idx (ix2 e (0 : Fin 1))).toInt = (i.val : Int)),
          upd (ix2 e c) := by
  show Ideal.hostScatterAdd (rowScatterDims N E C wf) x idx upd (ix2 i c) = _
  unfold Ideal.hostScatterAdd
  congr 1
  symm
  refine Finset.sum_nbij' (fun e => ix2 e c) (fun j => j 0) ?_ ?_ ?_ ?_ ?_
  · intro e he
    rw [Finset.mem_filter] at he ⊢
    exact ⟨Finset.mem_univ _, (rowScatter_resultIdx?_eq_some_iff wf idx e c i c).2 ⟨he.2, rfl⟩⟩
  · intro j hj
    obtain ⟨e, c', rfl⟩ : ∃ e c', j = ix2 e c' := ⟨j 0, j 1, eq_ix2 j⟩
    have hj' := (Finset.mem_filter.1 hj).2
    exact Finset.mem_filter.2 ⟨Finset.mem_univ e, ((rowScatter_resultIdx?_eq_some_iff wf idx e c' i c).1 hj').1⟩
  · intro e _
    rfl
  · intro j hj
    obtain ⟨e, c', rfl⟩ : ∃ e c', j = ix2 e c' := ⟨j 0, j 1, eq_ix2 j⟩
    rw [Finset.mem_filter] at hj
    obtain rfl := ((rowScatter_resultIdx?_eq_some_iff wf idx e c' i c).1 hj.2).2
    rfl
  · intro e _
    rfl

/-! ## The vector scatter-add (one scalar per edge) -/

/-- The dimension numbers of `segment_sum` of per-edge scalars: an operand `[N]`, scatter indices `[E, 1]` and updates
    `[E]`; the operand's one axis is the inserted window axis, addressed by the one component of the scatter index, and
    the updates have no window axis. Their conditions `wf` are decided on a program's literal shapes. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update `e` starts at `idx[e, 0]`, read signed. -/
theorem vecScatter_start {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: the window coordinate there is `0`. -/
theorem vecScatter_window {N E : Nat} (wf : ScatterDims.WF ⟨1, ![N]⟩ ⟨2, ![E, 1]⟩ ⟨1, ![E]⟩ [] [0] [0] 1)
    (e : Fin E) : (vecScatterDims N E wf).window (ix1 e) 0 = 0 := by
  unfold ScatterDims.window
  rw [dif_neg (show (0 : Fin 1) ∉ (⟨1, ![N]⟩ : Shape).kept ([0] : List (Fin 1)) by simp [Shape.kept])]

/-- WHERE AN UPDATE LANDS: update `e` goes to element `i` exactly when its scatter index `idx[e, 0]`, read signed and
    not clamped, is `i`; with an index outside `[0, N)` it goes nowhere. -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (i : Fin N) :
    (vecScatterDims N E wf).resultIdx? (ix1 e) idx = some (ix1 i)
      ↔ (idx (ix2 e (0 : Fin 1))).toInt = (i.val : Int) := by
  have h0 := vecScatter_start wf idx e
  have w0 := vecScatter_window wf e
  unfold ScatterDims.resultIdx?
  split
  · rename_i h
    rw [Option.some.injEq]
    constructor
    · intro hf
      have e0 : ((vecScatterDims N E wf).start (ix1 e) idx 0
          + ((vecScatterDims N E wf).window (ix1 e) 0 : Nat)).toNat = i.val :=
        congrArg Fin.val (congrFun hf 0)
      have b0 := (h 0).1
      rw [h0, w0] at e0 b0
      omega
    · intro ht
      funext a
      refine Fin.ext ?_
      match a with
      | ⟨0, _⟩ =>
        show ((vecScatterDims N E wf).start (ix1 e) idx 0
          + ((vecScatterDims N E wf).window (ix1 e) 0 : Nat)).toNat = i.val
        rw [h0, w0, ht]; omega
  · rename_i h
    constructor
    · intro hf; exact absurd hf (by simp)
    · intro ht
      exfalso; apply h
      intro a
      match a with
      | ⟨0, _⟩ =>
        show 0 ≤ (vecScatterDims N E wf).start (ix1 e) idx 0 + ((vecScatterDims N E wf).window (ix1 e) 0 : Nat)
          ∧ (vecScatterDims N E wf).start (ix1 e) idx 0 + ((vecScatterDims N E wf).window (ix1 e) 0 : Nat) < (N : Int)
        rw [h0, w0, ht]; have := i.isLt; omega

/-- THE VECTOR SCATTER-ADD READ AT `i`, at the exact values: the operand's element plus the sum, over the edges `e`
    whose scatter index `idx[e, 0]` (signed, not clamped) is `i`, of the update's element `e`. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (i : Fin N) :
    Host.scatterAdd (F := Ideal) (φ := .f32) (vecScatterDims N E wf) x idx upd (ix1 i)
      = x (ix1 i) + ∑ e ∈ Finset.univ.filter (fun e : Fin E => (idx (ix2 e (0 : Fin 1))).toInt = (i.val : Int)),
          upd (ix1 e) := by
  show Ideal.hostScatterAdd (vecScatterDims N E wf) x idx upd (ix1 i) = _
  unfold Ideal.hostScatterAdd
  congr 1
  symm
  refine Finset.sum_nbij' (fun e => ix1 e) (fun j => j 0) ?_ ?_ ?_ ?_ ?_
  · intro e he
    have he' := (Finset.mem_filter.1 he).2
    exact Finset.mem_filter.2 ⟨Finset.mem_univ _, (vecScatter_resultIdx?_eq_some_iff wf idx e i).2 he'⟩
  · intro j hj
    obtain ⟨e, rfl⟩ : ∃ e, j = ix1 e := ⟨j 0, eq_ix1 j⟩
    have hj' := (Finset.mem_filter.1 hj).2
    exact Finset.mem_filter.2 ⟨Finset.mem_univ e, (vecScatter_resultIdx?_eq_some_iff wf idx e i).1 hj'⟩
  · intro e _
    rfl
  · intro j _
    obtain ⟨e, rfl⟩ : ∃ e, j = ix1 e := ⟨j 0, eq_ix1 j⟩
    rfl
  · intro e _
    rfl

end Cert.Lib.RowGatherScatter

end
-- ==== Proof.KPrefixTerms.lean ====
/-
  The host lines before the kernel's product, as functions of the argument arrays, read at an index.

  The weight tables are laid one over the other (11008 rows of 4096), the rows are permuted by `jnp.take` along the
  row axis with the index vector `p`, and the result is padded with 256 zero rows to 11264 rows; the bias is padded
  with 256 zeros and given a leading unit axis. For an index vector in range the take's bounds mask is all ones, so
  row `j < 11008` of the padded table is row `sel (p j)` of the stacked tables, and rows `j ≥ 11008` are zero.
-/
import proofs.«177211_j6451040879136_1_alg».proof.Proof.Gen.KernelIdeal
import proofs.«177211_j6451040879136_1_alg».proof.Proof.TakeWords
import proofs.«177211_j6451040879136_1_alg».proof.Proof.LibRowGatherScatter
import Idealize.ShloMosaic.Lib.KernelVsHost
import Idealize.ShloMosaic.Lib.Pipeline.Value

noncomputable section

namespace Cert.KernelIdeal.Prefix

open Cert.KernelIdeal Idealize.ShloMosaic Idealize.ShloMosaic.ValueIdx

/-! ## The index words -/

/-- The wrapped index vector. -/
def wrapVec (p : IVec S11008 32) : IVec S11008 32 :=
  select (cmpi .slt p (broadcastInDim S11008 ![] Facts₀.bcast_S_S11008 (constantI S_ 32 0#32)))
    (addi p (broadcastInDim S11008 ![] Facts₀.bcast_S_S11008 (constantI S_ 32 11008#32))) p

theorem wrapVec_apply (p : IVec S11008 32) (j : Fin 11008) : wrapVec p (ix1 j) = Cert.Spec.wrap (p (ix1 j)) :=
  Cert.TakeWords.wrapped_apply p _ _ (fun _ => rfl) (fun _ => rfl) _

/-- The wrapped index vector as a column `[11008, 1]`: the gather's start indices. -/
def idxCol (p : IVec S11008 32) : IVec S11008x1 32 :=
  broadcastInDim S11008x1 ![0] Facts₀.bcast_S11008_S11008x1_0 (wrapVec p)

theorem idxCol_apply (p : IVec S11008 32) (j : Fin 11008) (z : Fin 1) :
    idxCol p (ix2 j z) = Cert.Spec.wrap (p (ix1 j)) :=
  (Cert.TakeWords.bcast_axis0_apply _ (wrapVec p) j z).trans (wrapVec_apply p j)

/-- The bounds test on the column. -/
def maskCol (p : IVec S11008 32) : IVec S11008x1 1 :=
  andi (cmpi .sge (idxCol p) (broadcastInDim S11008x1 ![] Facts₀.bcast_S_S11008x1 (constantI S_ 32 0#32)))
    (cmpi .sle (idxCol p) (broadcastInDim S11008x1 ![0, 1] Facts₀.bcast_S1x1_S11008x1_0_1
      (broadcastInDim S1x1 ![1] Facts₀.bcast_S1_S1x1_1 (constantI S1 32 11007#32))))

theorem maskCol_apply (p : IVec S11008 32) (hp : ∀ j : Fin 11008, Cert.Spec.InRange (p (ix1 j))) (i : S11008x1.Idx) :
    maskCol p i = 1#1 := by
  obtain ⟨j, z, rfl⟩ : ∃ (j : Fin 11008) (z : Fin 1), i = ix2 j z := ⟨i 0, i 1, eq_ix2 i⟩
  exact Cert.TakeWords.inb_apply (idxCol p) _ _ (fun _ => rfl) (fun _ => rfl) (ix2 j z) (p (ix1 j)) (hp j)
    (idxCol_apply p j z)

/-- The bounds mask: the column's test reduced by `and` over its unit axis. -/
def mask (p : IVec S11008 32) : IVec S11008 1 :=
  Host.reduce IntOp.andi (maskCol p) (constantI S_ 1 1#1) Facts₀.reducesTo_S11008x1_S11008_d1 Facts₀.h_S_

theorem mask_apply (p : IVec S11008 32) (hp : ∀ j : Fin 11008, Cert.Spec.InRange (p (ix1 j))) (j : S11008.Idx) :
    mask p j = 1#1 :=
  Cert.TakeWords.reduce_andi_eq_one_of_forall _ _ _ _ j (fun _ => rfl) (fun i _ => maskCol_apply p hp i)

/-! ## The permuted rows -/

/-- `jnp.take` of the rows of `W` at the index vector `p`. -/
def takeT (W : FVec Ideal S11008x4096 .f32) (p : IVec S11008 32) : FVec Ideal S11008x4096 .f32 :=
  select (broadcastInDim S11008x4096 ![0] Facts₀.bcast_S11008_S11008x4096_0 (mask p))
    (Host.gather gather_S11008x4096_S11008x1_S11008x4096_1_0_n_n_0_1_14096 W (idxCol p))
    (broadcastInDim S11008x4096 ![] Facts₀.bcast_S_S11008x4096 (constant (F := Ideal) S_ .f32 0x7FC00000#32))

theorem takeT_apply (W : FVec Ideal S11008x4096 .f32) (p : IVec S11008 32)
    (hp : ∀ j : Fin 11008, Cert.Spec.InRange (p (ix1 j))) (j : Fin 11008) (k : Fin 4096) :
    takeT W p (ix2 j k) = W (ix2 (Cert.Spec.sel (p (ix1 j))) k) := by
  unfold takeT
  rw [select_apply, Cert.TakeWords.bcast_axis0_apply, mask_apply p hp, select_one]
  have hg : gather_S11008x4096_S11008x1_S11008x4096_1_0_n_n_0_1_14096
      = Cert.Lib.RowGatherScatter.rowGatherDims 11008 11008 4096
          Facts₀.gather_S11008x4096_S11008x1_S11008x4096_1_0_n_n_0_1_14096_wf := rfl
  rw [hg]
  refine (Cert.Lib.RowGatherScatter.rowGather_apply (by decide) _ W (idxCol p) j k).trans ?_
  refine congrArg W (congrArg (fun r => ix2 r k) (Fin.ext ?_))
  show min (idxCol p (ix2 j (0 : Fin 1))).toInt.toNat (11008 - 1) = min (Cert.Spec.wrap (p (ix1 j))).toInt.toNat 11007
  rw [idxCol_apply]

/-! ## The two tables laid one over the other -/

/-- The stacked weight tables. -/
def catW (w4 : FVec Ideal S8192x4096 .f32) (w8 : FVec Ideal S2816x4096 .f32) : FVec Ideal S11008x4096 .f32 :=
  concatenate S11008x4096 0 [⟨S8192x4096, w4⟩, ⟨S2816x4096, w8⟩] Facts₀.concatenates_S8192x4096_S2816x4096_S11008x4096_d0

theorem catW_apply (w4 : FVec Ideal S8192x4096 .f32) (w8 : FVec Ideal S2816x4096 .f32) (c : Fin 11008) (k : Fin 4096) :
    catW w4 w8 (ix2 c k) = Cert.Spec.wrow w4 w8 c k := by
  unfold catW Cert.Spec.wrow
  by_cases h : c.val < 8192
  · rw [dif_pos h]
    refine concatenate_apply_piece (0 : Fin 2) [⟨S8192x4096, w4⟩, ⟨S2816x4096, w8⟩] _ (ix2 c k) 0 (Nat.zero_lt_succ _)
      S8192x4096 w4 rfl rfl 0 rfl
      (ix2 (⟨c.val, h⟩ : Fin 8192) k) (fun b hb => ?_) ?_
    · match b with
      | ⟨0, _⟩ => exact absurd rfl hb
      | ⟨1, _⟩ => rfl
    · show 0 + c.val = c.val
      omega
  · rw [dif_neg h]
    have hc := c.isLt
    refine concatenate_apply_piece (0 : Fin 2) [⟨S8192x4096, w4⟩, ⟨S2816x4096, w8⟩] _ (ix2 c k) 1
      (Nat.succ_lt_succ (Nat.zero_lt_succ _)) S2816x4096 w8 rfl rfl 8192 rfl
      (ix2 (⟨c.val - 8192, by omega⟩ : Fin 2816) k) (fun b hb => ?_) ?_
    · match b with
      | ⟨0, _⟩ => exact absurd rfl hb
      | ⟨1, _⟩ => rfl
    · show 8192 + (c.val - 8192) = c.val
      omega

/-! ## The zero rows appended -/

/-- The permuted table padded with 256 rows of the constant. -/
def padW (T : FVec Ideal S11008x4096 .f32) : FVec Ideal S11264x4096 .f32 :=
  pad S11264x4096 ![0, 0] ![256, 0] ![0, 0] T (sitofp (F := Ideal) .f32 (constantI S_ 32 0#32))
    Facts₀.pads_S11008x4096_S11264x4096_02560_000 Facts₀.h_S_

/-- The integer constant 0 converted to a float is the real 0. -/
theorem padValue (i : S_.Idx) : (sitofp (F := Ideal) .f32 (constantI S_ 32 0#32) : FVec Ideal S_ .f32) i = 0 := by
  show (((0#32 : BitVec 32).toInt : ℝ) : EReal) = 0
  have e : (0#32 : BitVec 32).toInt = 0 := by decide
  rw [e]
  simp

theorem padW_apply (T : FVec Ideal S11008x4096 .f32) (j : Fin 11264) (k : Fin 4096) :
    padW T (ix2 j k) = if h : j.val < 11008 then T (ix2 (⟨j.val, h⟩ : Fin 11008) k) else 0 := by
  unfold padW
  by_cases h : j.val < 11008
  · rw [dif_pos h]
    refine pad_apply_of_inside _ _ _ T _ _ _ (ix2 j k) (ix2 (⟨j.val, h⟩ : Fin 11008) k) (fun a => ?_)
    match a with
    | ⟨0, _⟩ => show j.val = 0 + j.val * (0 + 1); omega
    | ⟨1, _⟩ => show k.val = 0 + k.val * (0 + 1); omega
  · rw [dif_neg h]
    refine (pad_apply_of_not_inside _ _ _ T _ _ _ (ix2 j k) (0 : Fin 2) (fun hin => h ?_)).trans (padValue _)
    have e : (j.val - 0) / (0 + 1) < 11008 := hin.2.2
    omega

/-- The bias padded with 256 copies of the constant. -/
def padB (b : FVec Ideal S11008 .f32) : FVec Ideal S11264 .f32 :=
  pad S11264 ![0] ![256] ![0] b (sitofp (F := Ideal) .f32 (constantI S_ 32 0#32))
    Facts₀.pads_S11008_S11264_02560 Facts₀.h_S_

theorem padB_apply (b : FVec Ideal S11008 .f32) (j : Fin 11264) :
    padB b (ix1 j) = if h : j.val < 11008 then b (ix1 (⟨j.val, h⟩ : Fin 11008)) else 0 := by
  unfold padB
  by_cases h : j.val < 11008
  · rw [dif_pos h]
    refine pad_apply_of_inside _ _ _ b _ _ _ (ix1 j) (ix1 (⟨j.val, h⟩ : Fin 11008)) (fun a => ?_)
    have ha : a = 0 := Subsingleton.elim _ _
    subst ha
    show j.val = 0 + j.val * (0 + 1)
    omega
  · rw [dif_neg h]
    refine (pad_apply_of_not_inside _ _ _ b _ _ _ (ix1 j) (0 : Fin 1) (fun hin => h ?_)).trans (padValue _)
    have e : (j.val - 0) / (0 + 1) < 11008 := hin.2.2
    omega

/-- The padded bias under a leading unit axis. -/
theorem shapeCast_row_apply (v : FVec Ideal S11264 .f32) (j : Fin 11264) :
    shapeCast S1x11264 v Facts₀.shapeCasts_S11264_S1x11264 (ix2 (0 : Fin 1) j) = v (ix1 j) := by
  refine shapeCast_apply v _ (ix2 (0 : Fin 1) j) (ix1 j) ?_
  rw [Shape.rowMajor_val_one, Shape.rowMajor_val_two]
  show j.val = 0 * 11264 + j.val
  omega

/-! ## The three arrays the product reads -/

/-- The padded, permuted weight table as the product reads it (the narrowing of the format is the identity on the
    exact values). -/
def v5T (w4 : FVec Ideal S8192x4096 .f32) (w8 : FVec Ideal S2816x4096 .f32) (p : IVec S11008 32) :
    FVec Ideal S11264x4096 .bf16 :=
  truncf .bf16 (padW (takeT (catW w4 w8) p)) Facts₀.bitsLt_bf16_f32

theorem v5T_apply (w4 : FVec Ideal S8192x4096 .f32) (w8 : FVec Ideal S2816x4096 .f32) (p : IVec S11008 32)
    (hp : ∀ j : Fin 11008, Cert.Spec.InRange (p (ix1 j))) (j : Fin 11264) (k : Fin 4096) :
    v5T w4 w8 p (ix2 j k)
      = if h : j.val < 11008 then Cert.Spec.wrow w4 w8 (Cert.Spec.sel (p (ix1 (⟨j.val, h⟩ : Fin 11008)))) k else 0 := by
  unfold v5T
  rw [truncf_apply, padW_apply]
  by_cases h : j.val < 11008
  · rw [dif_pos h, dif_pos h, takeT_apply _ _ hp, catW_apply]
  · rw [dif_neg h, dif_neg h]

/-- The padded bias as the product reads it. -/
def v6T (b : FVec Ideal S11008 .f32) : FVec Ideal S1x11264 .f32 :=
  shapeCast S1x11264 (padB b) Facts₀.shapeCasts_S11264_S1x11264

theorem v6T_apply (b : FVec Ideal S11008 .f32) (j : Fin 11264) :
    v6T b (ix2 (0 : Fin 1) j) = if h : j.val < 11008 then b (ix1 (⟨j.val, h⟩ : Fin 11008)) else 0 := by
  unfold v6T
  rw [shapeCast_row_apply, padB_apply]

end Cert.KernelIdeal.Prefix

end
-- ==== Proof.KPrefix.lean ====
/-
  The three arrays the kernel's product reads, as the region finds them: the activations, the permuted and padded
  weight table, and the padded bias, each read at an index in terms of the argument arrays.
-/
import proofs.«177211_j6451040879136_1_alg».proof.Proof.Gen.KernelIdeal.Frame.Runs
import proofs.«177211_j6451040879136_1_alg».proof.Proof.KPrefixTerms

set_option maxRecDepth 16384

noncomputable section

namespace Cert.KernelIdeal.Prefix

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ) (c : Dev nD)

/-- The activations with their format narrowed (the identity on the exact values). -/
def v4T (x : FVec Ideal S8192x4096 .f32) : FVec Ideal S8192x4096 .bf16 := truncf .bf16 x Facts₀.bitsLt_bf16_f32

/-- The activations as the product reads them. -/
theorem V_v4_eq : (V m c main_v4 : S8192x4096.Idx → EReal)
    = v4T (m ((c : Thread nD τ).loc main_arg0) : FVec Ideal S8192x4096 .f32) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem V_v4_apply (i : Fin 8192) (k : Fin 4096) :
    (V m c main_v4 : S8192x4096.Idx → EReal) (ix2 i k) = m ((c : Thread nD τ).loc main_arg0) (ix2 i k) :=
  congrFun (V_v4_eq m c) (ix2 i k)

/-- The padded bias as the product reads it. -/
theorem V_v6_eq : (V m c main_v6 : S1x11264.Idx → EReal)
    = v6T (m ((c : Thread nD τ).loc main_arg4) : FVec Ideal S11008 .f32) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem V_v6_apply (j : Fin 11264) :
    @Eq EReal ((V m c main_v6 : S1x11264.Idx → EReal) (ix2 (0 : Fin 1) j))
      (if h : j.val < 11008 then m ((c : Thread nD τ).loc main_arg4) (ix1 (⟨j.val, h⟩ : Fin 11008)) else 0) :=
  (congrFun (V_v6_eq m c) (ix2 (0 : Fin 1) j)).trans (v6T_apply _ j)

set_option maxHeartbeats 4000000 in
/-- The permuted, padded weight table as the product reads it. -/
theorem V_v5_eq : (V m c main_v5 : S11264x4096.Idx → EReal)
    = v5T (m ((c : Thread nD τ).loc main_arg1) : FVec Ideal S8192x4096 .f32)
        (m ((c : Thread nD τ).loc main_arg2) : FVec Ideal S2816x4096 .f32)
        (m ((c : Thread nD τ).loc main_arg3) : IVec S11008 32) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

theorem V_v5_apply (hp : ∀ j : Fin 11008, Cert.Spec.InRange (m ((c : Thread nD τ).loc main_arg3) (ix1 j)))
    (j : Fin 11264) (k : Fin 4096) :
    (V m c main_v5 : S11264x4096.Idx → EReal) (ix2 j k)
      = if h : j.val < 11008 then Cert.Spec.wrow (m ((c : Thread nD τ).loc main_arg1)) (m ((c : Thread nD τ).loc main_arg2))
          (Cert.Spec.sel (m ((c : Thread nD τ).loc main_arg3) (ix1 (⟨j.val, h⟩ : Fin 11008)))) k else 0 :=
  (congrFun (V_v5_eq m c) (ix2 j k)).trans (v5T_apply _ _ _ hp j k)

end Cert.KernelIdeal.Prefix

end
-- ==== Proof.Bridge.lean ====
/-
  The kernel program's result is the common specification.

  The region finds `X = x` (a change of float format is the identity), `W` = the rows of the stacked weight tables
  selected by the index words, followed by 256 zero rows, and `B` = the bias followed by 256 zeros. The program returns
  columns `j < 11008` of `X · Wᵀ + B`; there `W`'s row `j` is the selected row `r(j)` of the stacked tables and `B`'s
  entry is `bias[j]`, which is the specification's `(∑ k, x[i,k] · Wcat[r(j),k]) + bias[j]`. The padding rows are never read.
-/
import proofs.«177211_j6451040879136_1_alg».proof.Proof.KFinal
import proofs.«177211_j6451040879136_1_alg».proof.Proof.KPrefix
import proofs.«177211_j6451040879136_1_alg».proof.Proof.Spec
import proofs.«177211_j6451040879136_1_alg».proof.Proof.LibTransposedProduct

set_option maxRecDepth 16384

noncomputable section

open scoped BigOperators

namespace Cert.Bridge

open Cert.KernelIdeal Cert.KernelIdeal.Gen
open Idealize.ShloMosaic Idealize.ShloMosaic.TcCoe Idealize.ShloMosaic.ValueIdx Idealize.SL.Sem

/-- Under in-range index words, what the kernel program returns is the specification of its five arguments. -/
theorem kernel_eq_G (m : (ℓ : Loc nD τ sig) → Buf (Elt Ideal) ℓ) (c : Dev nD)
    (hp : ∀ j : Fin 11008, Cert.Spec.InRange (m ((c : Thread nD τ).loc main_arg3) (ix1 j))) :
    Cert.KernelIdeal.Region.resFn (V m c main_v4) (V m c main_v5) (V m c main_v6)
      = Cert.Spec.G (m ((c : Thread nD τ).loc main_arg0)) (m ((c : Thread nD τ).loc main_arg1))
          (m ((c : Thread nD τ).loc main_arg2)) (m ((c : Thread nD τ).loc main_arg3)) (m ((c : Thread nD τ).loc main_arg4)) := by
  funext q
  obtain ⟨i, j, rfl⟩ : ∃ (i : Fin 8192) (j : Fin 11008), q = ix2 i j := ⟨q 0, q 1, eq_ix2 q⟩
  have hj : j.val < 11264 := by have := j.isLt; omega
  unfold Cert.KernelIdeal.Region.resFn
  refine (Cert.LibTransposedProduct.slice_cols_apply 0 _ _ i j (⟨j.val, hj⟩ : Fin 11264)
    (by show j.val = 0 + j.val; omega)).trans ?_
  show Cert.KernelIdeal.Region.outAt _ _ _ i (⟨j.val, hj⟩ : Fin 11264) = Cert.Spec.Gat _ _ _ _ _ i j
  unfold Cert.KernelIdeal.Region.outAt Cert.Spec.Gat Cert.KernelIdeal.Region.prodRow
  refine congrArg₂ (· + ·) (Finset.sum_congr rfl fun k _ => ?_) ?_
  · rw [Cert.KernelIdeal.Prefix.V_v4_apply m c i k, Cert.KernelIdeal.Prefix.V_v5_apply m c hp (⟨j.val, hj⟩ : Fin 11264) k,
      dif_pos j.isLt]
  · rw [Cert.KernelIdeal.Prefix.V_v6_apply m c (⟨j.val, hj⟩ : Fin 11264), dif_pos j.isLt]

end Cert.Bridge

end
-- ==== Proof.PreDecode.lean ====
/-
  The index range read out of the precondition.

  The precondition's last two conjuncts are `all(inv_perm ≥ -11008)` and `all(inv_perm < 11008)`, signed: each an
  `and`-reduction of a pointwise comparison against a broadcast constant. Where the whole conjunction is 1, every
  index word lies in `[-11008, 11008)`.
-/
import proofs.«177211_j6451040879136_1_alg».proof.Pre_finite_inputs
import proofs.«177211_j6451040879136_1_alg».proof.Proof.Spec
import Idealize.ShloMosaic.Lib.ReduceAll

noncomputable section

namespace Cert.PreDecode

open Idealize.ShloMosaic Idealize.ShloMosaic.ValueIdx
open Cert.Pre_finite_inputs

/-- The scalar shape has one index. -/
instance : Subsingleton S_.Idx := ⟨fun a b => funext fun d => d.elim0⟩

/-- Every index word of an argument list satisfying the precondition is in range. -/
theorem inRange_of_pre [Cert.Pre_finite_inputs.Facts] (x : FVec Ideal S8192x4096 .f32) (w4 : FVec Ideal S8192x4096 .f32)
    (w8 : FVec Ideal S2816x4096 .f32) (p : IVec S11008 32) (b : FVec Ideal S11008 .f32)
    (h : Cert.Pre_finite_inputs.fn (F := Ideal) x w4 w8 p b = fun _ => 1#1) (j : Fin 11008) :
    Cert.Spec.InRange (p (ix1 j)) := by
  have e := congrFun h ix0
  dsimp only [Cert.Pre_finite_inputs.fn, Cert.Pre_finite_inputs.fn_part1] at e
  have e' : IntOp.andi (IntOp.andi _ _) _ = 1#1 := e
  obtain ⟨e1, hlt⟩ := IntOp.andi_eq_one.1 e'
  obtain ⟨-, hge⟩ := IntOp.andi_eq_one.1 e1
  have hge' := Host.reduce_andi_all _ _ _ _ ix0 hge (ix1 j)
  have hlt' := Host.reduce_andi_all _ _ _ _ ix0 hlt (ix1 j)
  have hge'' : IntOp.cmpi .sge (p (ix1 j)) 4294956288#32 = 1#1 := hge'
  have hlt'' : IntOp.cmpi .slt (p (ix1 j)) 11008#32 = 1#1 := hlt'
  rw [IntOp.cmpi_sge] at hge''
  rw [IntOp.cmpi_slt] at hlt''
  have c1 : (4294956288#32 : BitVec 32).toInt = -11008 := by decide
  have c2 : (11008#32 : BitVec 32).toInt = 11008 := by decide
  rw [c1] at hge''
  rw [c2] at hlt''
  exact ⟨hge'', hlt''⟩

end Cert.PreDecode

end
-- ==== Proof.RefRun.lean ====
/-
  The reference program's run, read as one term of its five argument arrays.

  The reference computes the two weight tables' products with the activations, lays them side by side along the
  channel axis, gathers COLUMNS of that product by the wrapped index words (filling a column whose word is out of
  bounds with the not-a-number constant), and adds the bias row. Its @main is a straight line of twenty-nine host
  operations once the two module-local functions are unfolded at their call sites; every weakly fair execution
  terminates with the result buffer at the operations' composed term of the launch contents and the arguments
  unchanged.
-/
import proofs.«177211_j6451040879136_1_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The composed term -/

/-- The index words wrapped: a word that reads negative has 11008 added. -/
def wrapped (p : IVec S11008 32) : IVec S11008 32 :=
  select (cmpi .slt p (broadcastInDim S11008 ![] bcast_S_S11008 (constantI S_ 32 0#32)))
    (addi p (broadcastInDim S11008 ![] bcast_S_S11008 (constantI S_ 32 11008#32))) p

/-- The wrapped words as the one-column index table the gather takes. -/
def idxcol (p : IVec S11008 32) : IVec S11008x1 32 :=
  broadcastInDim S11008x1 ![0] bcast_S11008_S11008x1_0 (wrapped p)

/-- Per channel, whether the wrapped word is a valid column: \`0 ≤ w\` and \`w ≤ 11007\`, read signed, the
    conjunction folded over the table's one column. -/
def mask (p : IVec S11008 32) : IVec S11008 1 :=
  Host.reduce IntOp.andi
    (andi (cmpi .sge (idxcol p) (broadcastInDim S11008x1 ![] bcast_S_S11008x1 (constantI S_ 32 0#32)))
      (cmpi .sle (idxcol p)
        (broadcastInDim S11008x1 ![0, 1] bcast_S1x1_S11008x1_0_1
          (broadcastInDim S1x1 ![1] bcast_S1_S1x1_1 (constantI S1 32 11007#32)))))
    (constantI S_ 1 1#1) reducesTo_S11008x1_S11008_d1 h_S_

/-- The activations' products with the two weight tables, side by side along the channel axis. -/
def prod (x : FVec Ideal S8192x4096 .f32) (w4 : FVec Ideal S8192x4096 .f32) (w8 : FVec Ideal S2816x4096 .f32) :
    FVec Ideal S8192x11008 .f32 :=
  concatenate S8192x11008 1
    [⟨S8192x8192, Host.dotGeneral (F := Ideal) dot_S8192x4096_S8192x4096_S8192x8192_1_1_0_0_n_n none x w4⟩,
     ⟨S8192x2816, Host.dotGeneral (F := Ideal) dot_S8192x4096_S2816x4096_S8192x2816_1_1_0_0_n_n none x w8⟩]
    concatenates_S8192x8192_S8192x2816_S8192x11008_d1

/-- The reference's result as a term of its arguments. -/
def refTerm (x : FVec Ideal S8192x4096 .f32) (w4 : FVec Ideal S8192x4096 .f32) (w8 : FVec Ideal S2816x4096 .f32)
    (p : IVec S11008 32) (b : FVec Ideal S11008 .f32) : FVec Ideal S8192x11008 .f32 :=
  addf (F := Ideal)
    (select (broadcastInDim S8192x11008 ![1] bcast_S11008_S8192x11008_1 (mask p))
      (Host.gather gather_S8192x11008_S11008x1_S8192x11008_0_1_n_n_1_1_81921 (prod x w4 w8) (idxcol p))
      (broadcastInDim S8192x11008 ![] bcast_S_S8192x11008 (constant (F := Ideal) S_ .f32 0x7FC00000#32)))
    (broadcastInDim S8192x11008 ![0, 1] bcast_S1x11008_S8192x11008_0_1
      (broadcastInDim S1x11008 ![1] bcast_S11008_S1x11008_1 b))

/-! ## The run -/

variable {F : FTy → Type} [FloatOps F]

/-- @main's twenty-nine operations, in order: its own three, the column lookup's twenty-three (the index
    wrapping's select among them), its own last three. -/
abbrev ops : List (HloOp τ sig (Elt F)) :=
  [ binary main_arg0 main_arg1 main_v0 ((fun l r => Host.dotGeneral dot_S8192x4096_S8192x4096_S8192x8192_1_1_0_0_n_n none l r) : (⟨S8192x4096, .f32⟩ : BufTy).Contents (Elt F) → (⟨S8192x4096, .f32⟩ : BufTy).Contents (Elt F) → (⟨S8192x8192, .f32⟩ : BufTy).Contents (Elt F)),
    binary main_arg0 main_arg2 main_v1 ((fun l r => Host.dotGeneral dot_S8192x4096_S2816x4096_S8192x2816_1_1_0_0_n_n none l r) : (⟨S8192x4096, .f32⟩ : BufTy).Contents (Elt F) → (⟨S2816x4096, .f32⟩ : BufTy).Contents (Elt F) → (⟨S8192x2816, .f32⟩ : BufTy).Contents (Elt F)),
    binary main_v0 main_v1 main_v2 ((fun a b => concatenate S8192x11008 1 [⟨S8192x8192, a⟩, ⟨S8192x2816, b⟩] concatenates_S8192x8192_S8192x2816_S8192x11008_d1) : (⟨S8192x8192, .f32⟩ : BufTy).Contents (Elt F) → (⟨S8192x2816, .f32⟩ : BufTy).Contents (Elt F) → (⟨S8192x11008, .f32⟩ : BufTy).Contents (Elt F)),
    TRef.nullary main_call0.c (constantI S_ 32 0#32),
    TRef.unary main_call0.c main_call0.v0 (broadcastInDim S11008 ![] bcast_S_S11008),
    TRef.binary (.of main_arg3) main_call0.v0 main_call0.v1 (cmpi .slt),
    TRef.nullary main_call0.c_0 (constantI S_ 32 11008#32),
    TRef.unary main_call0.c_0 main_call0.v2 (broadcastInDim S11008 ![] bcast_S_S11008),
    TRef.binary (.of main_arg3) main_call0.v2 main_call0.v3 addi,
    TRef.ternary main_call0.v1 main_call0.v3 (.of main_arg3) main_call0.call0.v0 select,
    TRef.unary main_call0.call0.v0 main_call0.v5 (broadcastInDim S11008x1 ![0] bcast_S11008_S11008x1_0),
    TRef.nullary main_call0.c_1 (constantI S1 32 11007#32),
    TRef.nullary main_call0.c_2 (constantI S_ 32 0#32),
    TRef.unary main_call0.c_2 main_call0.v6 (broadcastInDim S11008x1 ![] bcast_S_S11008x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S11008x1 ![0, 1] bcast_S1x1_S11008x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S11008x1_S11008_d1 h_S_),
    TRef.binary (.of main_v2) main_call0.v5 main_call0.v13 (fun x i => Host.gather gather_S8192x11008_S11008x1_S8192x11008_0_1_n_n_1_1_81921 x i),
    TRef.unary main_call0.v12 main_call0.v14 (broadcastInDim S8192x11008 ![1] bcast_S11008_S8192x11008_1),
    TRef.nullary main_call0.cst (constant S_ .f32 0x7FC00000#32),
    TRef.unary main_call0.cst main_call0.v15 (broadcastInDim S8192x11008 ![] bcast_S_S8192x11008),
    TRef.ternary main_call0.v14 main_call0.v13 main_call0.v15 main_call0.v16 select,
    unary main_arg4 main_v4 (broadcastInDim S1x11008 ![1] bcast_S11008_S1x11008_1 : (⟨S11008, .f32⟩ : BufTy).Contents (Elt F) → (⟨S1x11008, .f32⟩ : BufTy).Contents (Elt F)),
    unary main_v4 main_v5 (broadcastInDim S8192x11008 ![0, 1] bcast_S1x11008_S8192x11008_0_1 : (⟨S1x11008, .f32⟩ : BufTy).Contents (Elt F) → (⟨S8192x11008, .f32⟩ : BufTy).Contents (Elt F)),
    binary main_v3 main_v5 main_v6 (addf : (⟨S8192x11008, .f32⟩ : BufTy).Contents (Elt F) → (⟨S8192x11008, .f32⟩ : BufTy).Contents (Elt F) → (⟨S8192x11008, .f32⟩ : BufTy).Contents (Elt F)) ]

set_option maxRecDepth 1024 in
/-- @main is that straight line: the two functions' definitions unfolded at their calls, both sides are one chain
    of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub ..⟩

attribute [local irreducible] Host.reduce Host.gather concatenate in
set_option maxRecDepth 8192 in
/-- The operations' fold at the result buffer is the composed term of the argument contents. -/
theorem out_eq (V : Valuation τ sig (Elt Ideal)) :
    after (ops (F := Ideal)) V (main_v6 : DevRef τ sig)
      = refTerm (V (main_arg0 : DevRef τ sig)) (V (main_arg1 : DevRef τ sig)) (V (main_arg2 : DevRef τ sig))
          (V (main_arg3 : DevRef τ sig)) (V (main_arg4 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

/-- On every device, from any memory with zero counters: every weakly fair execution of @main terminates with the
    result at the composed term of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v6).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RefValue

end
-- ==== Proof.LibColGather.lean ====
/-
  Column gather, read at an index.

  Indexing the columns of a table, `A[:, idx]` for `A : [R, N]` and an index column `idx : [E, 1]`, is a gather
  whose result column `e` is the table's column `idx[e, 0]`, the start index read as a signed integer and clamped
  into `[0, N - 1]`: the row axis is the offset axis and is taken whole, the column axis is collapsed and indexed by
  the one component of the start index. The statement is over generic extents; no index set is enumerated.
-/
import Idealize.ShloMosaic.Lib.ValueIdx
import Idealize.ShloMosaic.PureOps.Ideal.Laws

noncomputable section

namespace Cert.Lib.ColGather

open Idealize.ShloMosaic Idealize.ShloMosaic.ValueIdx

/-- The dimension numbers of `A[:, idx]` for an operand `[R, N]`, start indices `[E, 1]` and result `[R, E]`: the
    column axis is collapsed and indexed by the one component of the start index, the row axis is the offset axis
    and is taken whole (slice sizes `[R, 1]`). Their conditions `wf` are decided on a program's literal shapes. -/
abbrev colGatherDims (R N E : Nat)
    (wf : GatherDims.WF ⟨2, ![R, N]⟩ ⟨2, ![E, 1]⟩ ⟨2, ![R, E]⟩ [0] [1] [] [1] [] 1 ![R, 1]) :
    GatherDims ⟨2, ![R, N]⟩ ⟨2, ![E, 1]⟩ ⟨2, ![R, E]⟩ where
  offsetDims := [0]
  collapsedSliceDims := [1]
  operandBatchingDims := []
  startIndicesBatchingDims := []
  startIndexMap := [1]
  indexVectorDim := 1
  sliceSizes := ![R, 1]
  wf := wf

/-- THE COLUMN GATHER READ AT `(i, e)`: the operand at row `i` and column `idx[e, 0]`, read signed and clamped into
    `[0, N - 1]`. -/
theorem colGather_apply {α : Type} {R N E w : Nat} (hN : 0 < N)
    (wf : GatherDims.WF ⟨2, ![R, N]⟩ ⟨2, ![E, 1]⟩ ⟨2, ![R, E]⟩ [0] [1] [] [1] [] 1 ![R, 1])
    (x : (⟨2, ![R, N]⟩ : Shape).Idx → α) (idx : IVec ⟨2, ![E, 1]⟩ w) (i : Fin R) (e : Fin E) :
    Host.gather (colGatherDims R N E wf) x idx (ix2 i e)
      = x (ix2 i (⟨min (idx (ix2 e (0 : Fin 1))).toInt.toNat (N - 1), by omega⟩ : Fin N)) := by
  unfold Host.gather
  congr 1
  funext a
  refine Fin.ext ?_
  match a with
  | ⟨0, _⟩ =>
    show (colGatherDims R N E wf).start (ix2 i e) idx 0 + (colGatherDims R N E wf).batchCoord (ix2 i e) 0
      + (colGatherDims R N E wf).offCoord (ix2 i e) 0 = i.val
    rw [GatherDims.batchCoord_eq_zero _ _ _ List.not_mem_nil]
    have hst : (colGatherDims R N E wf).start (ix2 i e) idx 0 = 0 := by
      unfold GatherDims.start
      rw [dif_neg (show (0 : Fin 2) ∉ ([1] : List (Fin 2)) by decide)]
    rw [hst]
    simp only [Nat.add_zero, Nat.zero_add]
    rfl
  | ⟨1, _⟩ =>
    show (colGatherDims R N E wf).start (ix2 i e) idx 1 + (colGatherDims R N E wf).batchCoord (ix2 i e) 1
      + (colGatherDims R N E wf).offCoord (ix2 i e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colGatherDims R N E wf).startIndexMap from List.mem_singleton.mpr rfl)]
    have hsi : (colGatherDims R N E wf).siIdx (ix2 i e) ⟨List.idxOf (1 : Fin 2) (colGatherDims R N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The same for any record of those dimension numbers (a printed program's own, which is that record by
    unfolding). -/
theorem gather_apply_of_eq {α : Type} {R N E w : Nat} (hN : 0 < N)
    (d : GatherDims ⟨2, ![R, N]⟩ ⟨2, ![E, 1]⟩ ⟨2, ![R, E]⟩)
    (wf : GatherDims.WF ⟨2, ![R, N]⟩ ⟨2, ![E, 1]⟩ ⟨2, ![R, E]⟩ [0] [1] [] [1] [] 1 ![R, 1])
    (hd : d = colGatherDims R N E wf)
    (x : (⟨2, ![R, N]⟩ : Shape).Idx → α) (idx : IVec ⟨2, ![E, 1]⟩ w) (i : Fin R) (e : Fin E) :
    Host.gather d x idx (ix2 i e)
      = x (ix2 i (⟨min (idx (ix2 e (0 : Fin 1))).toInt.toNat (N - 1), by omega⟩ : Fin N)) := by
  subst hd
  exact colGather_apply hN wf x idx i e

end Cert.Lib.ColGather

end
-- ==== Proof.LibHostProduct.lean ====
/-
  A matrix times the transpose of a matrix on the host, read at an entry, over the extended reals.

  A `dot_general` whose dimension numbers contract the COLUMNS of both operands (an `m × k` matrix against an
  `n × k` one, no batch axis) reads at `(a, b)` as `∑ c, A (a, c) · B (b, c)`: the entry of `A · Bᵀ`, with no
  accumulator and no rounding at the exact values. The dimension numbers come as a record `d` of a printed program
  with the fact that it is that record, so one lemma serves every such record at any extents.
-/
import Idealize.ShloMosaic.Lib.ValueIdx
import Idealize.ShloMosaic.PureOps.Ideal.Laws

noncomputable section

open scoped BigOperators

namespace Cert.Lib.HostProduct

open Idealize.ShloMosaic Idealize.ShloMosaic.ValueIdx

/-- The host's product of `A` with the transpose of `B`, at `(a, b)`: the sum over the shared column coordinate. -/
theorem dotGeneral_apply_of_transposedRhs {m k n : ℕ} {φ₁ φ₂ : FTy}
    (d : DotDims ⟨2, ![m, k]⟩ ⟨2, ![n, k]⟩ ⟨2, ![m, n]⟩)
    (hd : d = DotDims.transposedRhs m k n) (prec : Option ContractPrecision)
    (A : FVec Ideal ⟨2, ![m, k]⟩ φ₁) (B : FVec Ideal ⟨2, ![n, k]⟩ φ₂) (a : Fin m) (b : Fin n) :
    Host.dotGeneral (F := Ideal) d prec A B (ix2 a b) = ∑ c : Fin k, A (ix2 a c) * B (ix2 b c) := by
  subst hd
  refine (Ideal.dotGeneral_apply (DotDims.transposedRhs m k n) prec .single A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.Lib.HostProduct

end
-- ==== Proof.RefValue.lean ====
/-
  The reference's composed term is the shared specification when every index word is in range.

  Read at row `i` and channel `j`, outermost operation first: the sum of the selected value and the bias row's entry
  `j` (two broadcasts of the bias vector); the select's condition is the per-channel bounds test broadcast along the
  rows, which is 1 for an index word in range, so the select takes the gathered value and never the fill; the gather
  reads column `r(j)` of the side-by-side product, the wrapped word clamped; a column of the side-by-side product is a
  column of the first product when it is below 8192 and of the second otherwise; and each product's entry is the sum
  over the shared coordinate of the activations' row against the weight table's row.
-/
import proofs.«177211_j6451040879136_1_alg».proof.Proof.RefRun
import proofs.«177211_j6451040879136_1_alg».proof.Proof.Spec
import proofs.«177211_j6451040879136_1_alg».proof.Proof.TakeWords
import proofs.«177211_j6451040879136_1_alg».proof.Proof.LibColGather
import proofs.«177211_j6451040879136_1_alg».proof.Proof.LibHostProduct
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-! ## The index column and the bounds test -/

/-- The index column at `(e, 0)` is the wrapped index word `e`. -/
theorem idxcol_apply (p : IVec S11008 32) (e : Fin 11008) (z : Fin 1) :
    idxcol p (ix2 e z) = Cert.Spec.wrap (p (ix1 e)) := by
  unfold idxcol
  refine (Cert.TakeWords.bcast_axis0_apply bcast_S11008_S11008x1_0 (wrapped p) e z).trans ?_
  unfold wrapped
  exact Cert.TakeWords.wrapped_apply p _ _ (fun _ => rfl) (fun _ => rfl) (ix1 e)

/-- With every index word in range the bounds test is 1 at every channel. -/
theorem mask_apply (p : IVec S11008 32) (hp : ∀ j : Fin 11008, Cert.Spec.InRange (p (ix1 j))) (j : S11008.Idx) :
    mask p j = 1#1 := by
  unfold mask
  refine Cert.TakeWords.reduce_andi_eq_one_of_forall _ _ _ _ j (fun _ => rfl) (fun i _ => ?_)
  obtain ⟨e, z, rfl⟩ : ∃ (e : Fin 11008) (z : Fin 1), i = ix2 e z := ⟨i 0, i 1, eq_ix2 i⟩
  exact Cert.TakeWords.inb_apply (idxcol p) _ _ (fun _ => rfl) (fun _ => rfl) (ix2 e z) (p (ix1 e)) (hp e)
    (idxcol_apply p e z)

/-! ## The broadcasts -/

/-- A per-channel vector broadcast along the rows reads, at `(i, j)`, its entry `j`. -/
theorem rows_bcast_apply {α : Type} (m : S11008.Idx → α) (i : Fin 8192) (j : Fin 11008) :
    broadcastInDim S8192x11008 ![1] bcast_S11008_S8192x11008_1 m (ix2 i j) = m (ix1 j) :=
  broadcastInDim_apply _ _ m (ix2 i j) (ix1 j) (fun a => by
    match a with
    | ⟨0, _⟩ => rfl)

/-- The bias vector, made a one-row matrix and then broadcast along the rows, reads at `(i, j)` its entry `j`. -/
theorem bias_apply (b : FVec Ideal S11008 .f32) (i : Fin 8192) (j : Fin 11008) :
    broadcastInDim S8192x11008 ![0, 1] bcast_S1x11008_S8192x11008_0_1
        (broadcastInDim S1x11008 ![1] bcast_S11008_S1x11008_1 b) (ix2 i j) = b (ix1 j) := by
  refine (broadcastInDim_apply _ _ _ (ix2 i j) (ix2 (0 : Fin 1) j) (fun a => ?_)).trans ?_
  · match a with
    | ⟨0, _⟩ => rfl
    | ⟨1, _⟩ => rfl
  · exact broadcastInDim_apply _ _ b (ix2 (0 : Fin 1) j) (ix1 j) (fun a => by
      match a with
      | ⟨0, _⟩ => rfl)

/-! ## The gather -/

/-- The column gather at `(i, j)` reads its operand at row `i` and the column the index word `j` selects. -/
theorem gather_apply (y : FVec Ideal S8192x11008 .f32) (p : IVec S11008 32) (i : Fin 8192) (j : Fin 11008) :
    Host.gather gather_S8192x11008_S11008x1_S8192x11008_0_1_n_n_1_1_81921 y (idxcol p) (ix2 i j)
      = y (ix2 i (Cert.Spec.sel (p (ix1 j)))) := by
  refine (Cert.Lib.ColGather.gather_apply_of_eq (R := 8192) (N := 11008) (E := 11008) (by omega)
    gather_S8192x11008_S11008x1_S8192x11008_0_1_n_n_1_1_81921
    gather_S8192x11008_S11008x1_S8192x11008_0_1_n_n_1_1_81921_wf rfl y (idxcol p) i j).trans ?_
  refine congrArg y (congrArg (ix2 i) (Fin.ext ?_))
  show min (idxcol p (ix2 j (0 : Fin 1))).toInt.toNat 11007 = min (Cert.Spec.wrap (p (ix1 j))).toInt.toNat 11007
  rw [idxcol_apply]

/-! ## The side-by-side product -/

/-- Column `c` of the side-by-side product is the activations against row `c` of the stacked weight tables. -/
theorem prod_apply (x : FVec Ideal S8192x4096 .f32) (w4 : FVec Ideal S8192x4096 .f32) (w8 : FVec Ideal S2816x4096 .f32)
    (i : Fin 8192) (c : Fin 11008) :
    prod x w4 w8 (ix2 i c) = ∑ k : Fin 4096, x (ix2 i k) * Cert.Spec.wrow w4 w8 c k := by
  unfold prod
  by_cases h : c.val < 8192
  · have hw : ∀ k, Cert.Spec.wrow w4 w8 c k = w4 (ix2 (⟨c.val, h⟩ : Fin 8192) k) := fun k => dif_pos h
    simp only [hw]
    refine (concatenate_apply_piece (α := Ideal .f32) (t := S8192x11008) (1 : Fin 2)
      [⟨S8192x8192, Host.dotGeneral (F := Ideal) dot_S8192x4096_S8192x4096_S8192x8192_1_1_0_0_n_n none x w4⟩,
       ⟨S8192x2816, Host.dotGeneral (F := Ideal) dot_S8192x4096_S2816x4096_S8192x2816_1_1_0_0_n_n none x w8⟩]
      concatenates_S8192x8192_S8192x2816_S8192x11008_d1 (ix2 i c)
      0 Nat.zero_lt_two S8192x8192
      (Host.dotGeneral (F := Ideal) dot_S8192x4096_S8192x4096_S8192x8192_1_1_0_0_n_n none x w4) rfl rfl 0 rfl
      (ix2 i (⟨c.val, h⟩ : Fin 8192)) ?_ ?_).trans ?_
    · intro b
      match b with
      | ⟨0, _⟩ => intro _; rfl
      | ⟨1, _⟩ => intro hb; exact absurd rfl hb
    · show 0 + c.val = c.val
      omega
    · exact Cert.Lib.HostProduct.dotGeneral_apply_of_transposedRhs
        dot_S8192x4096_S8192x4096_S8192x8192_1_1_0_0_n_n rfl none x w4 i ⟨c.val, h⟩
  · have hc := c.isLt
    have hw : ∀ k, Cert.Spec.wrow w4 w8 c k = w8 (ix2 (⟨c.val - 8192, by omega⟩ : Fin 2816) k) := fun k => dif_neg h
    simp only [hw]
    refine (concatenate_apply_piece (α := Ideal .f32) (t := S8192x11008) (1 : Fin 2)
      [⟨S8192x8192, Host.dotGeneral (F := Ideal) dot_S8192x4096_S8192x4096_S8192x8192_1_1_0_0_n_n none x w4⟩,
       ⟨S8192x2816, Host.dotGeneral (F := Ideal) dot_S8192x4096_S2816x4096_S8192x2816_1_1_0_0_n_n none x w8⟩]
      concatenates_S8192x8192_S8192x2816_S8192x11008_d1 (ix2 i c)
      1 Nat.one_lt_two S8192x2816
      (Host.dotGeneral (F := Ideal) dot_S8192x4096_S2816x4096_S8192x2816_1_1_0_0_n_n none x w8) rfl rfl 8192 rfl
      (ix2 i (⟨c.val - 8192, by omega⟩ : Fin 2816)) ?_ ?_).trans ?_
    · intro b
      match b with
      | ⟨0, _⟩ => intro _; rfl
      | ⟨1, _⟩ => intro hb; exact absurd rfl hb
    · show 8192 + (c.val - 8192) = c.val
      omega
    · exact Cert.Lib.HostProduct.dotGeneral_apply_of_transposedRhs
        dot_S8192x4096_S2816x4096_S8192x2816_1_1_0_0_n_n rfl none x w8 i ⟨c.val - 8192, by omega⟩

/-! ## The term is the specification -/

/-- With every index word in range the reference's composed term is the specification's array. -/
theorem refTerm_eq_G (x : FVec Ideal S8192x4096 .f32) (w4 : FVec Ideal S8192x4096 .f32) (w8 : FVec Ideal S2816x4096 .f32)
    (p : IVec S11008 32) (b : FVec Ideal S11008 .f32)
    (hp : ∀ j : Fin 11008, Cert.Spec.InRange (p (ValueIdx.ix1 j))) :
    refTerm x w4 w8 p b = Cert.Spec.G x w4 w8 p b := by
  funext q
  obtain ⟨i, j, rfl⟩ : ∃ (i : Fin 8192) (j : Fin 11008), q = ix2 i j := ⟨q 0, q 1, eq_ix2 q⟩
  rw [Cert.Spec.G_ix2]
  unfold refTerm Cert.Spec.Gat
  rw [addf_apply, select_apply, rows_bcast_apply, mask_apply p hp, select_one, bias_apply, gather_apply, prod_apply]

end Cert.ReferenceIdeal.RefValue

end
-- ==== Proof.Claims.lean ====
/-
  The five claims.

  The two kernel programs' frames are the generated frame certificates; the reference's frame is its run with the
  result dropped; the idealization rewrote nothing. For the value claim: the precondition puts every index word in
  range, so the kernel program's result (the slice of `X · Wᵀ + B`) and the reference's result term are both the one
  specification of the five arguments, which the two memories agree on.
-/
import proofs.«177211_j6451040879136_1_alg».proof.Defs
import proofs.«177211_j6451040879136_1_alg».proof.Proof.Gen.Kernel.Frame
import proofs.«177211_j6451040879136_1_alg».proof.Proof.Gen.KernelIdeal.Frame
import proofs.«177211_j6451040879136_1_alg».proof.Proof.Gen.Kernel
import proofs.«177211_j6451040879136_1_alg».proof.Proof.Gen.KernelIdeal
import proofs.«177211_j6451040879136_1_alg».proof.Proof.Gen.ReferenceIdeal
import proofs.«177211_j6451040879136_1_alg».proof.Proof.Gen.Pre_finite_inputs
import proofs.«177211_j6451040879136_1_alg».proof.Proof.Bridge
import proofs.«177211_j6451040879136_1_alg».proof.Proof.PreDecode
import proofs.«177211_j6451040879136_1_alg».proof.Proof.RefRun
import proofs.«177211_j6451040879136_1_alg».proof.Proof.RefValue

set_option maxRecDepth 16384

noncomputable section

namespace Cert.Proof.Claims

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end at the specification of the arguments. -/
theorem algebraic : Cert.algebraic_KernelIdeal_ReferenceIdeal := by
  intro m ρ m' ρ' hpre hagree
  have hp : ∀ (c : Dev Cert.KernelIdeal.nD) (j : Fin 11008),
      Cert.Spec.InRange (m ((c.tc : Thread Cert.KernelIdeal.nD Cert.KernelIdeal.τ).loc Cert.KernelIdeal.main_arg3) (ix1 j)) :=
    fun c j => Cert.PreDecode.inRange_of_pre _ _ _ _ _ (hpre c) j
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.Bridge.kernel_eq_G m c (hp c)), (h c).2⟩)
      (Cert.KernelIdeal.Region.run m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1, (hagree c).2.2.2.2]
    exact Cert.ReferenceIdeal.RefValue.refTerm_eq_G _ _ _ _ _ (hp c)

end Cert.Proof.Claims

end
-- ==== Proof.lean ====
/-
  The certificate: a fused permuted-weight matrix product with bias, against two products, a concatenation, a column
  permutation and a bias add.

  The kernel program stacks the two dequantized weight tables, permutes the ROWS of the stack by the index words,
  pads to a multiple of the block size, and runs one blocked product `x · Wᵀ` with the bias added at the end of each
  output block, accumulating over four depth blocks; the reference forms the two products, lays them side by side,
  permutes the COLUMNS by the same index words and adds the bias. Over the extended reals both are
  `(∑ k, x[i,k] · Wcat[r(j),k]) + bias[j]` once every index word is in range (the added precondition): a change of float
  format is the identity, the four partial sums regroup into the whole sum by associativity and commutativity alone,
  and selecting a row of the stack before the product is selecting a column of the product after it. Outside that
  range both programs substitute a fill value that the product then treats differently, which is why the index range
  is part of the precondition.
-/
import proofs.«177211_j6451040879136_1_alg».proof.Defs
import proofs.«177211_j6451040879136_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
